-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S1x8192 : Shape := ⟨2, ![1, 8192]⟩
abbrev S8192x4096 : Shape := ⟨2, ![8192, 4096]⟩
abbrev S4096x8192 : Shape := ⟨2, ![4096, 8192]⟩
abbrev S4096x4096 : Shape := ⟨2, ![4096, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_v48 : IVec S_ 1) (main_v49 : FVec F S1x4096 .f32) (main_v50 : FVec F S1x4096 .f32) : IVec S_ 1 :=
  let main_v51 : IVec S1x4096 1 := cmpf .olt main_v49 main_v50
  let main_c_19 : IVec S_ 1 := constantI S_ 1 1#1
  let main_v52 : IVec S_ 1 := (fun x v => Host.reduce IntOp.andi x v reducesTo_S1x4096_S_d0_1 h_S_) main_v51 main_c_19
  let main_v53 : IVec S_ 1 := andi main_v48 main_v52
  main_v53

def fn_part2 {F : FTy → Type} [FloatOps F] (main_arg7 : FVec F S4096x4096 .f32) (main_arg8 : FVec F S4096x4096 .f32) (main_arg9 : FVec F S4096x4096 .f32) (main_arg10 : FVec F S1x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S1x4096 .f32 := Host.absf main_arg10
  let main_cst_18 : FVec F S_ .f32 := constant S_ .f32 0x7F800000#32
  let main_v50 : FVec F S1x4096 .f32 := broadcastInDim S1x4096 ![] bcast_S_S1x4096 main_cst_18
  fn_part3 (F := F) main_v48 main_v49 main_v50

def fn_part1 {F : FTy → Type} [FloatOps F] (main_arg4 : FVec F S8192x4096 .f32) (main_arg5 : FVec F S4096x8192 .f32) (main_arg6 : FVec F S4096x4096 .f32) (main_arg7 : FVec F S4096x4096 .f32) (main_arg8 : FVec F S4096x4096 .f32) (main_arg9 : FVec F S4096x4096 .f32) (main_arg10 : FVec F S1x4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S8192x4096 .f32 := Host.absf main_arg4
  let main_cst_6 : FVec F S_ .f32 := constant S_ .f32 0x7F800000#32
  let main_v20 : FVec F S8192x4096 .f32 := broadcastInDim S8192x4096 ![] bcast_S_S8192x4096 main_cst_6
  let main_v21 : IVec S8192x4096 1 := cmpf .olt main_v19 main_v20
  let main_c_7 : IVec S_ 1 := constantI S_ 1 1#1
  let main_v22 : IVec S_ 1 := (fun x v => Host.reduce IntOp.andi x v reducesTo_S8192x4096_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x4096 .f32) (main_arg1 : FVec F S1x8192 .f32) (main_arg2 : FVec F S1x4096 .f32) (main_arg3 : FVec F S1x4096 .f32) (main_arg4 : FVec F S8192x4096 .f32) (main_arg5 : FVec F S4096x8192 .f32) (main_arg6 : FVec F S4096x4096 .f32) (main_arg7 : FVec F S4096x4096 .f32) (main_arg8 : FVec F S4096x4096 .f32) (main_arg9 : FVec F S4096x4096 .f32) (main_arg10 : FVec F S1x4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_arg7 main_arg8 main_arg9 main_arg10 main_v13 main_v16
-- ==== Kernel.lean ====
abbrev S1x4096 : Shape := ⟨2, ![1, 4096]⟩
abbrev S1x8192 : Shape := ⟨2, ![1, 8192]⟩
abbrev S8192x4096 : Shape := ⟨2, ![8192, 4096]⟩
abbrev S4096x8192 : Shape := ⟨2, ![4096, 8192]⟩
abbrev S4096x4096 : Shape := ⟨2, ![4096, 4096]⟩
abbrev S_ : Shape := ⟨0, ![]⟩
abbrev S1024x4096 : Shape := ⟨2, ![1024, 4096]⟩
abbrev S1x1024 : Shape := ⟨2, ![1, 1024]⟩
abbrev S512x8192 : Shape := ⟨2, ![512, 8192]⟩
abbrev S1x512 : Shape := ⟨2, ![1, 512]⟩

abbrev nBuf : Space → Nat
  | .hbm => 23
  | .vmem => 42
  | .smem => 0
  | _ => 0

abbrev bufTy : (tb : Table) → Fin (tcTables nBuf tb) → BufTy
  | .hbm, ⟨0, _⟩ => ⟨S1x4096, .f32⟩
  | .hbm, ⟨1, _⟩ => ⟨S1x8192, .f32⟩
  | .hbm, ⟨2, _⟩ => ⟨S1x4096, .f32⟩
  | .hbm, ⟨3, _⟩ => ⟨S1x4096, .f32⟩
  | .hbm, ⟨4, _⟩ => ⟨S8192x4096, .f32⟩
  | .hbm, ⟨5, _⟩ => ⟨S4096x8192, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S_, .f32⟩
  | .hbm, ⟨12, _⟩ => ⟨S1x8192, .f32⟩
  | .hbm, ⟨13, _⟩ => ⟨S_, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x8192, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .local _ .vmem, ⟨0, _⟩ => ⟨S1x4096, .f32⟩
  | .local _ .vmem, ⟨1, _⟩ => ⟨S1024x4096, .f32⟩
  | .local _ .vmem, ⟨2, _⟩ => ⟨S1024x4096, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x8192, .f32⟩
  | .local _ .vmem, ⟨8, _⟩ => ⟨S512x8192, .f32⟩
  | .local _ .vmem, ⟨9, _⟩ => ⟨S512x8192, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x4096, .f32⟩
  | .local _ .vmem, ⟨15, _⟩ => ⟨S1024x4096, .f32⟩
  | .local _ .vmem, ⟨16, _⟩ => ⟨S1024x4096, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x4096, .f32⟩
  | .local _ .vmem, ⟨22, _⟩ => ⟨S1024x4096, .f32⟩
  | .local _ .vmem, ⟨23, _⟩ => ⟨S1024x4096, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x4096, .f32⟩
  | .local _ .vmem, ⟨29, _⟩ => ⟨S1024x4096, .f32⟩
  | .local _ .vmem, ⟨30, _⟩ => ⟨S1024x4096, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x4096, .f32⟩
  | .local _ .vmem, ⟨36, _⟩ => ⟨S1024x4096, .f32⟩
  | .local _ .vmem, ⟨37, _⟩ => ⟨S1024x4096, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1024x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1024x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S1024x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1x8192 : S_.BroadcastsInDim S1x8192 (![] : Fin 0 → Fin S1x8192.rank)
  bcast_S_S1x4096 : S_.BroadcastsInDim S1x4096 (![] : Fin 0 → Fin S1x4096.rank)
  inb_S1x4096_S1x4096_0_0 : ∀ a, (![0, 0] : Fin 2 → Nat) a + S1x4096.size a ≤ S1x4096.size a
  h_S1x4096 : 0 < S1x4096.numel
  inb_S1024x4096_S1024x4096_0_0 : ∀ a, (![0, 0] : Fin 2 → Nat) a + S1024x4096.size a ≤ S1024x4096.size a
  h_S1024x4096 : 0 < S1024x4096.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x8192_S1x8192_0_0 : ∀ a, (![0, 0] : Fin 2 → Nat) a + S1x8192.size a ≤ S1x8192.size a
  h_S1x8192 : 0 < S1x8192.numel
  inb_S512x8192_S512x8192_0_0 : ∀ a, (![0, 0] : Fin 2 → Nat) a + S512x8192.size a ≤ S512x8192.size a
  h_S512x8192 : 0 < S512x8192.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  dot_S1x4096_S1024x4096_S1x1024_1_1_0_0_n_n_wf : DotDims.WF S1x4096 S1024x4096 S1x1024 [1] [1] [0] [0] [] []
  dot_S1x8192_S512x8192_S1x512_1_1_0_0_n_n_wf : DotDims.WF S1x8192 S512x8192 S1x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x4096.size a
  hwx0_1 : ∀ i : grid0.Coords, EltTy.bits .f32 = 32 ∨ (Rect.block (s := S8192x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x8192.size a
  hwx1_0 : ∀ i : grid1.Coords, EltTy.bits .f32 = 32 ∨ (Rect.block (s := S1x8192) S1x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8192.size a ≤ S4096x8192.size a
  hwx1_1 : ∀ i : grid1.Coords, EltTy.bits .f32 = 32 ∨ (Rect.block (s := S4096x8192) S512x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .f32 = 32 ∨ (Rect.block (s := S4096x4096) S1024x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x4096.size a ≤ S1x4096.size a
  hwx3_0 : ∀ i : grid3.Coords, EltTy.bits .f32 = 32 ∨ (Rect.block (s := S1x4096) S1x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S4096x4096.size a
  hwx3_1 : ∀ i : grid3.Coords, EltTy.bits .f32 = 32 ∨ (Rect.block (s := S4096x4096) S1024x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x4096.size a
  hwx3_3 : ∀ i : grid3.Coords, EltTy.bits .f32 = 32 ∨ (Rect.block (s := S1x4096) S1x1024.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x4096.size a
  hwx4_0 : ∀ i : grid4.Coords, EltTy.bits .f32 = 32 ∨ (Rect.block (s := S1x4096) S1x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x4096.size a ≤ S4096x4096.size a
  hwx4_1 : ∀ i : grid4.Coords, EltTy.bits .f32 = 32 ∨ (Rect.block (s := S4096x4096) S1024x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x4096.size a
  hwx4_3 : ∀ i : grid4.Coords, EltTy.bits .f32 = 32 ∨ (Rect.block (s := S1x4096) S1x1024.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x4096.size a ≤ S1x4096.size a
  hwx5_0 : ∀ i : grid5.Coords, EltTy.bits .f32 = 32 ∨ (Rect.block (s := S1x4096) S1x4096.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x4096.size a ≤ S4096x4096.size a
  hwx5_1 : ∀ i : grid5.Coords, EltTy.bits .f32 = 32 ∨ (Rect.block (s := S4096x4096) S1024x4096.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x4096.size a
  hwx5_2 : ∀ i : grid5.Coords, EltTy.bits .f32 = 32 ∨ (Rect.block (s := S1x4096) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1024.size a ≤ S1x4096.size a
  hwx5_3 : ∀ i : grid5.Coords, EltTy.bits .f32 = 32 ∨ (Rect.block (s := S1x4096) S1x1024.size (cc5_transform_3 i) (hinb5_3 i)).WholeWords (EltTy.packing .f32)

variable [Facts₀]

def dot_S1x4096_S1024x4096_S1x1024_1_1_0_0_n_n : DotDims S1x4096 S1024x4096 S1x1024 where
  lhsContracting := [1]
  rhsContracting := [1]
  lhsNonContracting := [0]
  rhsNonContracting := [0]
  lhsBatch := []
  rhsBatch := []
  wf := dot_S1x4096_S1024x4096_S1x1024_1_1_0_0_n_n_wf
def dot_S1x8192_S512x8192_S1x512_1_1_0_0_n_n : DotDims S1x8192 S512x8192 S1x512 where
  lhsContracting := [1]
  rhsContracting := [1]
  lhsNonContracting := [0]
  rhsNonContracting := [0]
  lhsBatch := []
  rhsBatch := []
  wf := dot_S1x8192_S512x8192_S1x512_1_1_0_0_n_n_wf

abbrev win0_0 : Pipeline.Window sig grid0 :=
  Pipeline.Window.ofSpec (Memref.whole main_arg0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S1x4096.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1024x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S1x4096.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S1024x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v7) S1x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg3) S1x4096.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S1024x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v8) S1x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S1x4096 : Shape := ⟨2, ![1, 4096]⟩
abbrev S1x8192 : Shape := ⟨2, ![1, 8192]⟩
abbrev S8192x4096 : Shape := ⟨2, ![8192, 4096]⟩
abbrev S4096x8192 : Shape := ⟨2, ![4096, 8192]⟩
abbrev S4096x4096 : Shape := ⟨2, ![4096, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x8192, .f32⟩
  | .hbm, ⟨2, _⟩ => ⟨S1x4096, .f32⟩
  | .hbm, ⟨3, _⟩ => ⟨S1x4096, .f32⟩
  | .hbm, ⟨4, _⟩ => ⟨S8192x4096, .f32⟩
  | .hbm, ⟨5, _⟩ => ⟨S4096x8192, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S4096x8192, .f32⟩
  | .hbm, ⟨12, _⟩ => ⟨S1x8192, .f32⟩
  | .hbm, ⟨13, _⟩ => ⟨S8192x4096, .f32⟩
  | .hbm, ⟨14, _⟩ => ⟨S1x4096, .f32⟩
  | .hbm, ⟨15, _⟩ => ⟨S4096x4096, .f32⟩
  | .hbm, ⟨16, _⟩ => ⟨S1x4096, .f32⟩
  | .hbm, ⟨17, _⟩ => ⟨S1x4096, .f32⟩
  | .hbm, ⟨18, _⟩ => ⟨S4096x4096, .f32⟩
  | .hbm, ⟨19, _⟩ => ⟨S1x4096, .f32⟩
  | .hbm, ⟨20, _⟩ => ⟨S1x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S_, .f32⟩
  | .hbm, ⟨29, _⟩ => ⟨S1x4096, .f32⟩
  | .hbm, ⟨30, _⟩ => ⟨S1x4096, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S1x8192, .f32⟩
  | .hbm, ⟨35, _⟩ => ⟨S1x8192, .f32⟩
  | .hbm, ⟨36, _⟩ => ⟨S_, .f32⟩
  | .hbm, ⟨37, _⟩ => ⟨S1x8192, .f32⟩
  | .hbm, ⟨38, _⟩ => ⟨S1x8192, .f32⟩
  | .hbm, ⟨39, _⟩ => ⟨S_, .f32⟩
  | .hbm, ⟨40, _⟩ => ⟨S1x8192, .f32⟩
  | .hbm, ⟨41, _⟩ => ⟨S1x8192, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S_, .f32⟩
  | .hbm, ⟨53, _⟩ => ⟨S1x4096, .f32⟩
  | .hbm, ⟨54, _⟩ => ⟨S1x4096, .f32⟩
  | .hbm, ⟨55, _⟩ => ⟨S_, .f32⟩
  | .hbm, ⟨56, _⟩ => ⟨S1x4096, .f32⟩
  | .hbm, ⟨57, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  transposes_S8192x4096_S4096x8192_1_0 : S8192x4096.Transposes [1, 0] S4096x8192
  transposes_S4096x8192_S8192x4096_1_0 : S4096x8192.Transposes [1, 0] S8192x4096
  transposes_S4096x4096_S4096x4096_1_0 : S4096x4096.Transposes [1, 0] S4096x4096
  bcast_S_S1x4096 : S_.BroadcastsInDim S1x4096 (![] : Fin 0 → Fin S1x4096.rank)
  bcast_S_S1x8192 : S_.BroadcastsInDim S1x8192 (![] : Fin 0 → Fin S1x8192.rank)
  dot_S1x4096_S4096x8192_S1x8192_1_0_0_1_n_n_wf : DotDims.WF S1x4096 S4096x8192 S1x8192 [1] [0] [0] [1] [] []
  dot_S1x8192_S8192x4096_S1x4096_1_0_0_1_n_n_wf : DotDims.WF S1x8192 S8192x4096 S1x4096 [1] [0] [0] [1] [] []
  dot_S1x4096_S4096x4096_S1x4096_1_0_0_1_n_n_wf : DotDims.WF S1x4096 S4096x4096 S1x4096 [1] [0] [0] [1] [] []

variable [Facts₀]

def dot_S1x4096_S4096x8192_S1x8192_1_0_0_1_n_n : DotDims S1x4096 S4096x8192 S1x8192 where
  lhsContracting := [1]
  rhsContracting := [0]
  lhsNonContracting := [0]
  rhsNonContracting := [1]
  lhsBatch := []
  rhsBatch := []
  wf := dot_S1x4096_S4096x8192_S1x8192_1_0_0_1_n_n_wf
def dot_S1x8192_S8192x4096_S1x4096_1_0_0_1_n_n : DotDims S1x8192 S8192x4096 S1x4096 where
  lhsContracting := [1]
  rhsContracting := [0]
  lhsNonContracting := [0]
  rhsNonContracting := [1]
  lhsBatch := []
  rhsBatch := []
  wf := dot_S1x8192_S8192x4096_S1x4096_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf

class Facts : Prop extends Facts₀ where

variable [Facts]
-- ==== Proof.NetRun.lean ====
/-
  The whole kernel program's run, with its four results named.

  The program is six pipelined matrix-vector regions after a stretch of host operations that fill three rows with
  zeros. Every weakly fair execution terminates, and at the end every buffer that outlives the run holds what the
  last region leaves: the contents after the host stretch, with each region's output array in turn replaced by the
  fold of that region's written-back blocks (the generated boundary contents `W1` … `W7`). Here the final state is
  read at the four result arrays and at the eleven arguments.
-/
import proofs.«117232_j20134806684319_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result array ends at the last
    boundary's contents and each argument array as launched. -/
theorem run : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_v3) = W7 m ρ c (Proc.devRef .tc main_v3)
      ∧ r.2.mem ((c.tc : Thread nD τ).loc main_v6) = W7 m ρ c (Proc.devRef .tc main_v6)
      ∧ r.2.mem ((c.tc : Thread nD τ).loc main_v7) = W7 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v8 (by decide)),
       h c _ (mem_uc main_v3 (by decide)),
       h c _ (mem_uc main_v6 (by decide)),
       h c _ (mem_uc main_v7 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Net

end
-- ==== Proof.Layer.lean ====
/-
  One layer's update in a recurrent network, over the extended reals.

  A layer with `M` units receives the activation row `x` (1 × N) of a source layer through a weight matrix `W`
  (M × N, one row per receiving unit) on top of what it has already received, `prev` (1 × M):

      drive x W prev = prev + x · Wᵀ,          entry j:  prev[0, j] + Σ_k x[0, k] · W[j, k],

  and fires through the logistic function: `fire x W prev = 1 / (1 + e^{-(drive x W prev)})`, entry by entry.
  A layer at rest has received nothing (`rest`, all zeros). Several incoming connections are summed by chaining
  `drive` through `prev`.

  Nothing here needs the entries to be finite: the only laws used between the two programs are `0 + y = y` and the
  commutativity of `+`, both of which hold at the infinities too.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

/-- An `a × b` matrix of extended reals. -/
abbrev Mat (a b : ℕ) : Type := FVec Ideal ⟨2, ![a, b]⟩ .f32

/-- What a layer has received after one more connection: `prev + x · Wᵀ`. -/
def drive {M N : ℕ} (x : Mat 1 N) (W : Mat M N) (prev : Mat 1 M) : Mat 1 M :=
  fun i => prev i + ∑ k : Fin N, x (ix2 (i 0) k) * W (ix2 (i 1) k)

/-- The layer's new activation: the logistic function of what it received. -/
def fire {M N : ℕ} (x : Mat 1 N) (W : Mat M N) (prev : Mat 1 M) : Mat 1 M :=
  fun i => Ideal.logistic (drive x W prev i)

/-- A layer that has received nothing yet. -/
def rest (M : ℕ) : Mat 1 M := fun _ => 0

theorem drive_apply {M N : ℕ} (x : Mat 1 N) (W : Mat M N) (prev : Mat 1 M) (i : (⟨2, ![1, M]⟩ : Shape).Idx) :
    drive x W prev i = prev i + ∑ k : Fin N, x (ix2 (i 0) k) * W (ix2 (i 1) k) := rfl

theorem fire_apply {M N : ℕ} (x : Mat 1 N) (W : Mat M N) (prev : Mat 1 M) (i : (⟨2, ![1, M]⟩ : Shape).Idx) :
    fire x W prev i = Ideal.logistic (prev i + ∑ k : Fin N, x (ix2 (i 0) k) * W (ix2 (i 1) k)) := rfl

/-- From rest, a layer has received exactly the one product. -/
theorem drive_rest_apply {M N : ℕ} (x : Mat 1 N) (W : Mat M N) (i : (⟨2, ![1, M]⟩ : Shape).Idx) :
    drive x W (rest M) i = ∑ k : Fin N, x (ix2 (i 0) k) * W (ix2 (i 1) k) := by
  rw [drive_apply]; exact zero_add _

/-- `drive` read through a tile: when, at a tile index `y` and an array index `i`, the tile's copy of the activation
    row, its row of weights and its received entry are the array's, the tile's result at `y` is the array's at `i`. -/
theorem drive_tile {T M N : ℕ} (x' x : Mat 1 N) (Wt : Mat T N) (W : Mat M N) (pt : Mat 1 T) (prev : Mat 1 M)
    (y : (⟨2, ![1, T]⟩ : Shape).Idx) (i : (⟨2, ![1, M]⟩ : Shape).Idx)
    (hx : ∀ k : Fin N, x' (ix2 (y 0) k) = x (ix2 (i 0) k))
    (hW : ∀ k : Fin N, Wt (ix2 (y 1) k) = W (ix2 (i 1) k))
    (hp : pt y = prev i) :
    drive x' Wt pt y = drive x W prev i := by
  rw [drive_apply, drive_apply, hp]
  exact congrArg (prev i + ·) (Finset.sum_congr rfl fun k _ => by rw [hx k, hW k])

/-- The same for `fire`. -/
theorem fire_tile {T M N : ℕ} (x' x : Mat 1 N) (Wt : Mat T N) (W : Mat M N) (pt : Mat 1 T) (prev : Mat 1 M)
    (y : (⟨2, ![1, T]⟩ : Shape).Idx) (i : (⟨2, ![1, M]⟩ : Shape).Idx)
    (hx : ∀ k : Fin N, x' (ix2 (y 0) k) = x (ix2 (i 0) k))
    (hW : ∀ k : Fin N, Wt (ix2 (y 1) k) = W (ix2 (i 1) k))
    (hp : pt y = prev i) :
    fire x' Wt pt y = fire x W prev i :=
  congrArg Ideal.logistic (drive_tile x' x Wt W pt prev y i hx hW hp)

/-- The single-precision word `0x3F800000` is the number one. -/
theorem one_word : Ideal.ofBits .f32 0x3F800000#32 = (1 : EReal) := by
  simp [Ideal.ofBits, Ideal.ieee, -EReal.coe_mul]; norm_num

/-- The single-precision zero word is the number zero. -/
theorem zero_word : Ideal.ofBits .f32 0x00000000#32 = (0 : EReal) := Ideal.ofBits_zero_f32

/-- The logistic function spelled out as a quotient, `1 / (1 + e^{-y})` with both ones given as words, is the
    logistic function: that is its definition on the extended reals, the infinities included. -/
theorem logistic_spelled (y : EReal) :
    Ideal.div (Ideal.ofBits .f32 0x3F800000#32) (Ideal.ofBits .f32 0x3F800000#32 + Ideal.exp (-y)) = Ideal.logistic y := by
  rw [one_word]; rfl

end Cert.Layer

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.BodyValue.lean ====
/-
  What one grid step of each region computes from the blocks it loads.

  Every region's body loads the whole activation row `x`, a tile of `T` rows of the weight matrix and the matching
  `T` entries of what the layer has received so far, multiplies the row by the transposed tile on the matrix unit into
  a zero accumulator and adds the result to the received entries: that is `drive` on the tile. Four of the six
  regions finish a layer and apply the logistic function (`fire`); the two in the middle of the three-connection chain
  do not. A cast of a value to its own shape is the identity.
-/
import proofs.«117232_j20134806684319_1_alg».proof.Proof.Gen.KernelIdeal.Skeleton
import proofs.«117232_j20134806684319_1_alg».proof.Proof.Layer
import proofs.«117232_j20134806684319_1_alg».proof.Proof.LibMatmulT
import Idealize.ShloMosaic.Lib.Pipeline.Value

noncomputable section

namespace Cert.Layer

open Idealize.ShloMosaic Idealize.ShloMosaic.ValueIdx

/-- The row times the transposed tile, accumulated from zero and added to the received entries, is `drive` on the
    tile: entry `(0, q)` is `prev[0, q] + Σ_k x[0, k] · Wt[q, k]`. -/
theorem tile_drive {T N : ℕ} (w : DotDims.WF ⟨2, ![1, N]⟩ ⟨2, ![T, N]⟩ ⟨2, ![1, T]⟩ [1] [1] [0] [0] [] [])
    (x : Mat 1 N) (Wt : Mat T N) (prev : Mat 1 T) :
    addf prev (matmul (⟨[1], [1], [0], [0], [], [], w⟩ : DotDims ⟨2, ![1, N]⟩ ⟨2, ![T, N]⟩ ⟨2, ![1, T]⟩) none x Wt
        (constant ⟨2, ![1, T]⟩ .f32 0x00000000#32))
      = drive x Wt prev := by
  funext y
  obtain ⟨p, q, rfl⟩ : ∃ (p : Fin 1) (q : Fin T), y = ix2 p q := ⟨y 0, y 1, eq_ix2 y⟩
  rw [addf_apply, drive_apply]
  exact congrArg (prev (ix2 p q) + ·) (MatmulT.matmul_zero_apply w none x Wt p q)

end Cert.Layer

namespace Cert.KernelIdeal.Body

open Cert.KernelIdeal Cert.KernelIdeal.Gen Cert.Layer
open Idealize.ShloMosaic Idealize.ShloMosaic.ValueIdx

/-- Region 0 (entorhinal → dentate): a tile of 1024 units fires. -/
theorem pay0 (v0 : Vec Ideal S1x4096 .f32) (v1 : Vec Ideal S1024x4096 .f32) (v3 : Vec Ideal S1x1024 .f32) :
    k0_pay1 (F := Ideal) v0 v1 v3 = fire v0 v1 v3 := by
  unfold k0_pay1
  simp only [shapeCast_self]
  exact congrArg logistic (tile_drive Facts₀.dot_S1x4096_S1024x4096_S1x1024_1_1_0_0_n_n_wf v0 v1 v3)

/-- Region 1 (dentate → CA3, first of three connections): a tile of 512 units receives. -/
theorem pay1 (v0 : Vec Ideal S1x8192 .f32) (v1 : Vec Ideal S512x8192 .f32) (v3 : Vec Ideal S1x512 .f32) :
    k1_pay1 (F := Ideal) v0 v1 v3 = drive v0 v1 v3 := by
  unfold k1_pay1
  simp only [shapeCast_self]
  exact tile_drive Facts₀.dot_S1x8192_S512x8192_S1x512_1_1_0_0_n_n_wf v0 v1 v3

/-- Region 2 (CA3 → CA3, second connection): a tile of 1024 units receives on top of the first. -/
theorem pay2 (v0 : Vec Ideal S1x4096 .f32) (v1 : Vec Ideal S1024x4096 .f32) (v3 : Vec Ideal S1x1024 .f32) :
    k2_pay1 (F := Ideal) v0 v1 v3 = drive v0 v1 v3 := by
  unfold k2_pay1
  simp only [shapeCast_self]
  exact tile_drive Facts₀.dot_S1x4096_S1024x4096_S1x1024_1_1_0_0_n_n_wf v0 v1 v3

/-- Region 3 (entorhinal → CA3, third connection): the tile fires on the sum of the three. -/
theorem pay3 (v0 : Vec Ideal S1x4096 .f32) (v1 : Vec Ideal S1024x4096 .f32) (v3 : Vec Ideal S1x1024 .f32) :
    k3_pay1 (F := Ideal) v0 v1 v3 = fire v0 v1 v3 := by
  unfold k3_pay1
  simp only [shapeCast_self]
  exact congrArg logistic (tile_drive Facts₀.dot_S1x4096_S1024x4096_S1x1024_1_1_0_0_n_n_wf v0 v1 v3)

/-- Region 4 (CA3 → CA1): a tile of 1024 units fires. -/
theorem pay4 (v0 : Vec Ideal S1x4096 .f32) (v1 : Vec Ideal S1024x4096 .f32) (v3 : Vec Ideal S1x1024 .f32) :
    k4_pay1 (F := Ideal) v0 v1 v3 = fire v0 v1 v3 := by
  unfold k4_pay1
  simp only [shapeCast_self]
  exact congrArg logistic (tile_drive Facts₀.dot_S1x4096_S1024x4096_S1x1024_1_1_0_0_n_n_wf v0 v1 v3)

/-- Region 5 (CA1 → entorhinal, on top of the external input): a tile of 1024 units fires. -/
theorem pay5 (v0 : Vec Ideal S1x4096 .f32) (v1 : Vec Ideal S1024x4096 .f32) (v3 : Vec Ideal S1x1024 .f32) :
    k5_pay1 (F := Ideal) v0 v1 v3 = fire v0 v1 v3 := by
  unfold k5_pay1
  exact congrArg logistic (tile_drive Facts₀.dot_S1x4096_S1024x4096_S1x1024_1_1_0_0_n_n_wf v0 v1 v3)

end Cert.KernelIdeal.Body

end
-- ==== Proof.Region0.lean ====
/-
  Region 0: the dentate layer (8192 units) fires on the entorhinal activation.

  The grid has 8 points; point `t` handles units `1024 t … 1024 t + 1023`: it loads the whole activation row, rows
  `1024 t …` of the weight matrix and entries `1024 t …` of what the layer had received (zeros, as it happens, but
  nothing here uses that) and writes entries `1024 t …` of the result. So what point `t` writes back is block `t` of
  ONE function of the arrays as the region finds them — `fire` — and, the 8 blocks covering all 8192 entries, the
  result array ends holding that function.
-/
import proofs.«117232_j20134806684319_1_alg».proof.Proof.Gen.KernelIdeal.Frame
import proofs.«117232_j20134806684319_1_alg».proof.Proof.BodyValue
import Idealize.ShloMosaic.Lib.Pipeline.Value

noncomputable section

namespace Cert.KernelIdeal.Region0

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 8 points: the activation row is always block (0, 0); the weight
    tile is block (t, 0); the received entries and the result are block (0, t). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The activation row's block is the whole row. -/
theorem iblk_x (c : Dev nD) (t : Fin cfg0.N) (y k : S1x4096.Idx)
    (hk0 : (k 0).val = (y 0).val) (hk1 : (k 1).val = (y 1).val) :
    (iblk0 V c 0 t : Vec Ideal S1x4096 .f32) y = (V c main_arg0 : S1x4096.Idx → Elt Ideal .f32) k := by
  obtain ⟨e00, e01, -⟩ := idx_facts t
  unfold iblk0
  rw [View.read_apply]
  show (V c main_arg0 : S1x4096.Idx → Elt Ideal .f32) _ = (V c main_arg0 : S1x4096.Idx → Elt Ideal .f32) _
  refine congrArg (V c main_arg0 : S1x4096.Idx → Elt Ideal .f32) (funext fun a => Fin.ext ?_)
  match a with
  | ⟨0, _⟩ => show win0_0.index t (0 : Fin 2) * 1 + 1 * (y 0).val = (k 0).val; rw [e00, hk0]; omega
  | ⟨1, _⟩ => show win0_0.index t (1 : Fin 2) * 4096 + 1 * (y 1).val = (k 1).val; rw [e01, hk1]; omega

/-- The weight tile at point `t` is rows `1024 t … 1024 t + 1023` of the weight matrix. -/
theorem iblk_W (c : Dev nD) (t : Fin cfg0.N) (y : S1024x4096.Idx) (k : S8192x4096.Idx)
    (hk0 : (k 0).val = 1024 * t.val + (y 0).val) (hk1 : (k 1).val = (y 1).val) :
    (iblk0 V c 1 t : Vec Ideal S1024x4096 .f32) y = (V c main_arg4 : S8192x4096.Idx → Elt Ideal .f32) k := by
  obtain ⟨-, -, e10, e11, -⟩ := idx_facts t
  unfold iblk0
  rw [View.read_apply]
  show (V c main_arg4 : S8192x4096.Idx → Elt Ideal .f32) _ = (V c main_arg4 : S8192x4096.Idx → Elt Ideal .f32) _
  refine congrArg (V c main_arg4 : S8192x4096.Idx → Elt Ideal .f32) (funext fun a => Fin.ext ?_)
  match a with
  | ⟨0, _⟩ => show win0_1.index t (0 : Fin 2) * 1024 + 1 * (y 0).val = (k 0).val; rw [e10, hk0]; omega
  | ⟨1, _⟩ => show win0_1.index t (1 : Fin 2) * 4096 + 1 * (y 1).val = (k 1).val; rw [e11, hk1]; omega

/-- The received entries at point `t` are entries `1024 t … 1024 t + 1023` of the received row. -/
theorem iblk_prev (c : Dev nD) (t : Fin cfg0.N) (y : S1x1024.Idx) (k : S1x8192.Idx)
    (hk0 : (k 0).val = (y 0).val) (hk1 : (k 1).val = 1024 * t.val + (y 1).val) :
    (iblk0 V c 2 t : Vec Ideal S1x1024 .f32) y = (V c main_v0 : S1x8192.Idx → Elt Ideal .f32) k := by
  obtain ⟨-, -, -, -, e20, e21, -⟩ := idx_facts t
  unfold iblk0
  rw [View.read_apply]
  show (V c main_v0 : S1x8192.Idx → Elt Ideal .f32) _ = (V c main_v0 : S1x8192.Idx → Elt Ideal .f32) _
  refine congrArg (V c main_v0 : S1x8192.Idx → Elt Ideal .f32) (funext fun a => Fin.ext ?_)
  match a with
  | ⟨0, _⟩ => show win0_2.index t (0 : Fin 2) * 1 + 1 * (y 0).val = (k 0).val; rw [e20, hk0]; omega
  | ⟨1, _⟩ => show win0_2.index t (1 : Fin 2) * 1024 + 1 * (y 1).val = (k 1).val; rw [e21, hk1]; omega

/-- What point `t` writes back is block `t` of `fire` of the three arrays as the region finds them. -/
theorem flushed_eq (c : Dev nD) (t : Fin cfg0.N) :
    (dat0 V c).flushed 3 t = ((cfg0.win 3).blk t).view.read (Elt Ideal)
      (fire (V c main_arg0) (V c main_arg4) (V c main_v0)) := by
  show (cfg0.win 3).cut (grid0.coords t) ((dat0 V c).after 3 t) = _
  rw [after0_3]
  unfold out0_3
  rw [View.canon_unit_zero hz]
  simp only [View.ld_unit_zero (S := S1x4096) hz, View.ld_unit_zero (S := S1024x4096) hz, View.ld_unit_zero (S := S1x1024) hz]
  rw [Body.pay0]
  obtain ⟨-, -, -, -, -, -, e30, e31⟩ := idx_facts t
  funext j
  rw [View.read_apply]
  have E0 : ((((cfg0.win 3).blk t).view.emb j) 0).val = (j 0).val := by
    show win0_3.index t (0 : Fin 2) * 1 + 1 * (j 0).val = (j 0).val; rw [e30]; omega
  have E1 : ((((cfg0.win 3).blk t).view.emb j) 1).val = 1024 * t.val + (j 1).val := by
    show win0_3.index t (1 : Fin 2) * 1024 + 1 * (j 1).val = 1024 * t.val + (j 1).val; rw [e31]; omega
  exact fire_tile (iblk0 V c 0 t) (V c main_arg0) (iblk0 V c 1 t) (V c main_arg4) (iblk0 V c 2 t) (V c main_v0)
    j (((cfg0.win 3).blk t).view.emb j)
    (fun k => iblk_x V c t _ _ E0 rfl)
    (fun k => iblk_W V c t _ _ E1 rfl)
    (iblk_prev V c t j _ E0 E1)

/-- An entry of the result row is in point `t`'s block iff each coordinate is in the block's range. -/
theorem mem_blk (t : Fin cfg0.N) (i : S1x8192.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v3).slice (win0_3.rect t)).set ↔ _
  rw [View.set_slice_whole, Rect.mem_set_unit]
  exact Iff.rfl

/-- Entry `(0, q)` is written back by point `q / 1024`. -/
theorem cover (i : S1x8192.Idx) : ∃ t : Fin cfg0.N, (cfg0.win 3).flush t = true ∧ i ∈ ((cfg0.win 3).blk t).view.set := by
  have hi0 : (i 0).val < 1 := (i 0).isLt
  have hi1 : (i 1).val < 8192 := (i 1).isLt
  have hN : cfg0.N = 8 := N_0
  let t : Fin cfg0.N := ⟨(i 1).val / 1024, by rw [hN]; omega⟩
  obtain ⟨-, -, -, -, -, -, e30, e31⟩ := idx_facts t
  have ht : t.val = (i 1).val / 1024 := rfl
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; rw [e30]; omega
  | ⟨1, _⟩ => show win0_3.index t (1 : Fin 2) * 1024 ≤ (i 1).val ∧ (i 1).val < win0_3.index t (1 : Fin 2) * 1024 + 1024; rw [e31, ht]; omega

/-- The result array after the region: `fire` of the three arrays as the region finds them. -/
theorem final (c : Dev nD) :
    (dat0 V c).arrAt 3 cfg0.N = fire (V c main_arg0) (V c main_arg4) (V c main_v0) :=
  (dat0 V c).arrAt_eq_of_cover 3 (fire (V c main_arg0) (V c main_arg4) (V c main_v0)) (fun t _ => flushed_eq V c t) cover

end Cert.KernelIdeal.Region0

end
-- ==== Proof.Region1.lean ====
/-
  Region 1: the CA3 layer (4096 units) receives the dentate activation, the first of its three connections.

  The grid has 8 points; point `t` handles units `512 t … 512 t + 511`: it loads the whole dentate row (8192
  entries), rows `512 t …` of the weight matrix and entries `512 t …` of what the layer had received, and writes
  entries `512 t …` of the new received row, without firing. What point `t` writes back is block `t` of ONE
  function of the arrays as the region finds them — `drive` — and the 8 blocks cover all 4096 entries.
-/
import proofs.«117232_j20134806684319_1_alg».proof.Proof.Gen.KernelIdeal.Frame
import proofs.«117232_j20134806684319_1_alg».proof.Proof.BodyValue
import Idealize.ShloMosaic.Lib.Pipeline.Value

noncomputable section

namespace Cert.KernelIdeal.Region1

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 8 points: the activation row is always block (0, 0); the weight
    tile is block (t, 0); the received entries and the result are block (0, t). -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The activation row's block is the whole row. -/
theorem iblk_x (c : Dev nD) (t : Fin cfg1.N) (y k : S1x8192.Idx)
    (hk0 : (k 0).val = (y 0).val) (hk1 : (k 1).val = (y 1).val) :
    (iblk1 V c 0 t : Vec Ideal S1x8192 .f32) y = (V c main_arg1 : S1x8192.Idx → Elt Ideal .f32) k := by
  obtain ⟨e00, e01, -⟩ := idx_facts t
  unfold iblk1
  rw [View.read_apply]
  show (V c main_arg1 : S1x8192.Idx → Elt Ideal .f32) _ = (V c main_arg1 : S1x8192.Idx → Elt Ideal .f32) _
  refine congrArg (V c main_arg1 : S1x8192.Idx → Elt Ideal .f32) (funext fun a => Fin.ext ?_)
  match a with
  | ⟨0, _⟩ => show win1_0.index t (0 : Fin 2) * 1 + 1 * (y 0).val = (k 0).val; rw [e00, hk0]; omega
  | ⟨1, _⟩ => show win1_0.index t (1 : Fin 2) * 8192 + 1 * (y 1).val = (k 1).val; rw [e01, hk1]; omega

/-- The weight tile at point `t` is rows `512 t … 512 t + 511` of the weight matrix. -/
theorem iblk_W (c : Dev nD) (t : Fin cfg1.N) (y : S512x8192.Idx) (k : S4096x8192.Idx)
    (hk0 : (k 0).val = 512 * t.val + (y 0).val) (hk1 : (k 1).val = (y 1).val) :
    (iblk1 V c 1 t : Vec Ideal S512x8192 .f32) y = (V c main_arg5 : S4096x8192.Idx → Elt Ideal .f32) k := by
  obtain ⟨-, -, e10, e11, -⟩ := idx_facts t
  unfold iblk1
  rw [View.read_apply]
  show (V c main_arg5 : S4096x8192.Idx → Elt Ideal .f32) _ = (V c main_arg5 : S4096x8192.Idx → Elt Ideal .f32) _
  refine congrArg (V c main_arg5 : S4096x8192.Idx → Elt Ideal .f32) (funext fun a => Fin.ext ?_)
  match a with
  | ⟨0, _⟩ => show win1_1.index t (0 : Fin 2) * 512 + 1 * (y 0).val = (k 0).val; rw [e10, hk0]; omega
  | ⟨1, _⟩ => show win1_1.index t (1 : Fin 2) * 8192 + 1 * (y 1).val = (k 1).val; rw [e11, hk1]; omega

/-- The received entries at point `t` are entries `512 t … 512 t + 511` of the received row. -/
theorem iblk_prev (c : Dev nD) (t : Fin cfg1.N) (y : S1x512.Idx) (k : S1x4096.Idx)
    (hk0 : (k 0).val = (y 0).val) (hk1 : (k 1).val = 512 * t.val + (y 1).val) :
    (iblk1 V c 2 t : Vec Ideal S1x512 .f32) y = (V c main_v1 : S1x4096.Idx → Elt Ideal .f32) k := by
  obtain ⟨-, -, -, -, e20, e21, -⟩ := idx_facts t
  unfold iblk1
  rw [View.read_apply]
  show (V c main_v1 : S1x4096.Idx → Elt Ideal .f32) _ = (V c main_v1 : S1x4096.Idx → Elt Ideal .f32) _
  refine congrArg (V c main_v1 : S1x4096.Idx → Elt Ideal .f32) (funext fun a => Fin.ext ?_)
  match a with
  | ⟨0, _⟩ => show win1_2.index t (0 : Fin 2) * 1 + 1 * (y 0).val = (k 0).val; rw [e20, hk0]; omega
  | ⟨1, _⟩ => show win1_2.index t (1 : Fin 2) * 512 + 1 * (y 1).val = (k 1).val; rw [e21, hk1]; omega

/-- What point `t` writes back is block `t` of `drive` of the three arrays as the region finds them. -/
theorem flushed_eq (c : Dev nD) (t : Fin cfg1.N) :
    (dat1 V c).flushed 3 t = ((cfg1.win 3).blk t).view.read (Elt Ideal)
      (drive (V c main_arg1) (V c main_arg5) (V c main_v1)) := by
  show (cfg1.win 3).cut (grid1.coords t) ((dat1 V c).after 3 t) = _
  rw [after1_3]
  unfold out1_3
  rw [View.canon_unit_zero hz]
  simp only [View.ld_unit_zero (S := S1x8192) hz, View.ld_unit_zero (S := S512x8192) hz, View.ld_unit_zero (S := S1x512) hz]
  rw [Body.pay1]
  obtain ⟨-, -, -, -, -, -, e30, e31⟩ := idx_facts t
  funext j
  rw [View.read_apply]
  have E0 : ((((cfg1.win 3).blk t).view.emb j) 0).val = (j 0).val := by
    show win1_3.index t (0 : Fin 2) * 1 + 1 * (j 0).val = (j 0).val; rw [e30]; omega
  have E1 : ((((cfg1.win 3).blk t).view.emb j) 1).val = 512 * t.val + (j 1).val := by
    show win1_3.index t (1 : Fin 2) * 512 + 1 * (j 1).val = 512 * t.val + (j 1).val; rw [e31]; omega
  exact drive_tile (iblk1 V c 0 t) (V c main_arg1) (iblk1 V c 1 t) (V c main_arg5) (iblk1 V c 2 t) (V c main_v1)
    j (((cfg1.win 3).blk t).view.emb j)
    (fun k => iblk_x V c t _ _ E0 rfl)
    (fun k => iblk_W V c t _ _ E1 rfl)
    (iblk_prev V c t j _ E0 E1)

/-- An entry of the result row is in point `t`'s block iff each coordinate is in the block's range. -/
theorem mem_blk (t : Fin cfg1.N) (i : S1x4096.Idx) :
    i ∈ ((cfg1.win 3).blk t).view.set ↔ ∀ a : Fin 2, win1_3.index t a * S1x512.size a ≤ (i a).val ∧ (i a).val < win1_3.index t a * S1x512.size a + S1x512.size a := by
  show i ∈ ((View.whole main_v4).slice (win1_3.rect t)).set ↔ _
  rw [View.set_slice_whole, Rect.mem_set_unit]
  exact Iff.rfl

/-- Entry `(0, q)` is written back by point `q / 512`. -/
theorem cover (i : S1x4096.Idx) : ∃ t : Fin cfg1.N, (cfg1.win 3).flush t = true ∧ i ∈ ((cfg1.win 3).blk t).view.set := by
  have hi0 : (i 0).val < 1 := (i 0).isLt
  have hi1 : (i 1).val < 4096 := (i 1).isLt
  have hN : cfg1.N = 8 := N_1
  let t : Fin cfg1.N := ⟨(i 1).val / 512, by rw [hN]; omega⟩
  obtain ⟨-, -, -, -, -, -, e30, e31⟩ := idx_facts t
  have ht : t.val = (i 1).val / 512 := rfl
  refine ⟨t, flush1_3 t, ?_⟩
  rw [mem_blk]
  intro a
  match a with
  | ⟨0, _⟩ => show win1_3.index t (0 : Fin 2) * 1 ≤ (i 0).val ∧ (i 0).val < win1_3.index t (0 : Fin 2) * 1 + 1; rw [e30]; omega
  | ⟨1, _⟩ => show win1_3.index t (1 : Fin 2) * 512 ≤ (i 1).val ∧ (i 1).val < win1_3.index t (1 : Fin 2) * 512 + 512; rw [e31, ht]; omega

/-- The result array after the region: `drive` of the three arrays as the region finds them. -/
theorem final (c : Dev nD) :
    (dat1 V c).arrAt 3 cfg1.N = drive (V c main_arg1) (V c main_arg5) (V c main_v1) :=
  (dat1 V c).arrAt_eq_of_cover 3 (drive (V c main_arg1) (V c main_arg5) (V c main_v1)) (fun t _ => flushed_eq V c t) cover

end Cert.KernelIdeal.Region1

end
-- ==== Proof.Region2.lean ====
/-
  Region 2: the CA3 layer receives its own previous activation (the recurrent connection), on top of what
  region 1 left.

  The grid has 4 points; point `t` handles units `1024 t … 1024 t + 1023`. What it writes back is block `t` of
  `drive` of the arrays as the region finds them, and the 4 blocks cover all 4096 entries.
-/
import proofs.«117232_j20134806684319_1_alg».proof.Proof.Gen.KernelIdeal.Frame
import proofs.«117232_j20134806684319_1_alg».proof.Proof.BodyValue
import Idealize.ShloMosaic.Lib.Pipeline.Value

noncomputable section

namespace Cert.KernelIdeal.Region2

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 4 points: the activation row is always block (0, 0); the weight
    tile is block (t, 0); the received entries and the result are block (0, t). -/
theorem idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- The activation row's block is the whole row. -/
theorem iblk_x (c : Dev nD) (t : Fin cfg2.N) (y k : S1x4096.Idx)
    (hk0 : (k 0).val = (y 0).val) (hk1 : (k 1).val = (y 1).val) :
    (iblk2 V c 0 t : Vec Ideal S1x4096 .f32) y = (V c main_arg2 : S1x4096.Idx → Elt Ideal .f32) k := by
  obtain ⟨e00, e01, -⟩ := idx_facts t
  unfold iblk2
  rw [View.read_apply]
  show (V c main_arg2 : S1x4096.Idx → Elt Ideal .f32) _ = (V c main_arg2 : S1x4096.Idx → Elt Ideal .f32) _
  refine congrArg (V c main_arg2 : S1x4096.Idx → Elt Ideal .f32) (funext fun a => Fin.ext ?_)
  match a with
  | ⟨0, _⟩ => show win2_0.index t (0 : Fin 2) * 1 + 1 * (y 0).val = (k 0).val; rw [e00, hk0]; omega
  | ⟨1, _⟩ => show win2_0.index t (1 : Fin 2) * 4096 + 1 * (y 1).val = (k 1).val; rw [e01, hk1]; omega

/-- The weight tile at point `t` is rows `1024 t … 1024 t + 1023` of the weight matrix. -/
theorem iblk_W (c : Dev nD) (t : Fin cfg2.N) (y : S1024x4096.Idx) (k : S4096x4096.Idx)
    (hk0 : (k 0).val = 1024 * t.val + (y 0).val) (hk1 : (k 1).val = (y 1).val) :
    (iblk2 V c 1 t : Vec Ideal S1024x4096 .f32) y = (V c main_arg6 : S4096x4096.Idx → Elt Ideal .f32) k := by
  obtain ⟨-, -, e10, e11, -⟩ := idx_facts t
  unfold iblk2
  rw [View.read_apply]
  show (V c main_arg6 : S4096x4096.Idx → Elt Ideal .f32) _ = (V c main_arg6 : S4096x4096.Idx → Elt Ideal .f32) _
  refine congrArg (V c main_arg6 : S4096x4096.Idx → Elt Ideal .f32) (funext fun a => Fin.ext ?_)
  match a with
  | ⟨0, _⟩ => show win2_1.index t (0 : Fin 2) * 1024 + 1 * (y 0).val = (k 0).val; rw [e10, hk0]; omega
  | ⟨1, _⟩ => show win2_1.index t (1 : Fin 2) * 4096 + 1 * (y 1).val = (k 1).val; rw [e11, hk1]; omega

/-- The received entries at point `t` are entries `1024 t … 1024 t + 1023` of the received row. -/
theorem iblk_prev (c : Dev nD) (t : Fin cfg2.N) (y : S1x1024.Idx) (k : S1x4096.Idx)
    (hk0 : (k 0).val = (y 0).val) (hk1 : (k 1).val = 1024 * t.val + (y 1).val) :
    (iblk2 V c 2 t : Vec Ideal S1x1024 .f32) y = (V c main_v4 : S1x4096.Idx → Elt Ideal .f32) k := by
  obtain ⟨-, -, -, -, e20, e21, -⟩ := idx_facts t
  unfold iblk2
  rw [View.read_apply]
  show (V c main_v4 : S1x4096.Idx → Elt Ideal .f32) _ = (V c main_v4 : S1x4096.Idx → Elt Ideal .f32) _
  refine congrArg (V c main_v4 : S1x4096.Idx → Elt Ideal .f32) (funext fun a => Fin.ext ?_)
  match a with
  | ⟨0, _⟩ => show win2_2.index t (0 : Fin 2) * 1 + 1 * (y 0).val = (k 0).val; rw [e20, hk0]; omega
  | ⟨1, _⟩ => show win2_2.index t (1 : Fin 2) * 1024 + 1 * (y 1).val = (k 1).val; rw [e21, hk1]; omega

/-- What point `t` writes back is block `t` of `drive` of the three arrays as the region finds them. -/
theorem flushed_eq (c : Dev nD) (t : Fin cfg2.N) :
    (dat2 V c).flushed 3 t = ((cfg2.win 3).blk t).view.read (Elt Ideal)
      (drive (V c main_arg2) (V c main_arg6) (V c main_v4)) := by
  show (cfg2.win 3).cut (grid2.coords t) ((dat2 V c).after 3 t) = _
  rw [after2_3]
  unfold out2_3
  rw [View.canon_unit_zero hz]
  simp only [View.ld_unit_zero (S := S1x4096) hz, View.ld_unit_zero (S := S1024x4096) hz, View.ld_unit_zero (S := S1x1024) hz]
  rw [Body.pay2]
  obtain ⟨-, -, -, -, -, -, e30, e31⟩ := idx_facts t
  funext j
  rw [View.read_apply]
  have E0 : ((((cfg2.win 3).blk t).view.emb j) 0).val = (j 0).val := by
    show win2_3.index t (0 : Fin 2) * 1 + 1 * (j 0).val = (j 0).val; rw [e30]; omega
  have E1 : ((((cfg2.win 3).blk t).view.emb j) 1).val = 1024 * t.val + (j 1).val := by
    show win2_3.index t (1 : Fin 2) * 1024 + 1 * (j 1).val = 1024 * t.val + (j 1).val; rw [e31]; omega
  exact drive_tile (iblk2 V c 0 t) (V c main_arg2) (iblk2 V c 1 t) (V c main_arg6) (iblk2 V c 2 t) (V c main_v4)
    j (((cfg2.win 3).blk t).view.emb j)
    (fun k => iblk_x V c t _ _ E0 rfl)
    (fun k => iblk_W V c t _ _ E1 rfl)
    (iblk_prev V c t j _ E0 E1)

/-- An entry of the result row is in point `t`'s block iff each coordinate is in the block's range. -/
theorem mem_blk (t : Fin cfg2.N) (i : S1x4096.Idx) :
    i ∈ ((cfg2.win 3).blk t).view.set ↔ ∀ a : Fin 2, win2_3.index t a * S1x1024.size a ≤ (i a).val ∧ (i a).val < win2_3.index t a * S1x1024.size a + S1x1024.size a := by
  show i ∈ ((View.whole main_v5).slice (win2_3.rect t)).set ↔ _
  rw [View.set_slice_whole, Rect.mem_set_unit]
  exact Iff.rfl

/-- Entry `(0, q)` is written back by point `q / 1024`. -/
theorem cover (i : S1x4096.Idx) : ∃ t : Fin cfg2.N, (cfg2.win 3).flush t = true ∧ i ∈ ((cfg2.win 3).blk t).view.set := by
  have hi0 : (i 0).val < 1 := (i 0).isLt
  have hi1 : (i 1).val < 4096 := (i 1).isLt
  have hN : cfg2.N = 4 := N_2
  let t : Fin cfg2.N := ⟨(i 1).val / 1024, by rw [hN]; omega⟩
  obtain ⟨-, -, -, -, -, -, e30, e31⟩ := idx_facts t
  have ht : t.val = (i 1).val / 1024 := rfl
  refine ⟨t, flush2_3 t, ?_⟩
  rw [mem_blk]
  intro a
  match a with
  | ⟨0, _⟩ => show win2_3.index t (0 : Fin 2) * 1 ≤ (i 0).val ∧ (i 0).val < win2_3.index t (0 : Fin 2) * 1 + 1; rw [e30]; omega
  | ⟨1, _⟩ => show win2_3.index t (1 : Fin 2) * 1024 ≤ (i 1).val ∧ (i 1).val < win2_3.index t (1 : Fin 2) * 1024 + 1024; rw [e31, ht]; omega

/-- The result array after the region: `drive` of the three arrays as the region finds them. -/
theorem final (c : Dev nD) :
    (dat2 V c).arrAt 3 cfg2.N = drive (V c main_arg2) (V c main_arg6) (V c main_v4) :=
  (dat2 V c).arrAt_eq_of_cover 3 (drive (V c main_arg2) (V c main_arg6) (V c main_v4)) (fun t _ => flushed_eq V c t) cover

end Cert.KernelIdeal.Region2

end
-- ==== Proof.Region3.lean ====
/-
  Region 3: the CA3 layer receives the entorhinal activation, its third connection, on top of what region 2
  left, and fires.

  The grid has 4 points; point `t` handles units `1024 t … 1024 t + 1023`. What it writes back is block `t` of
  `fire` of the arrays as the region finds them, and the 4 blocks cover all 4096 entries.
-/
import proofs.«117232_j20134806684319_1_alg».proof.Proof.Gen.KernelIdeal.Frame
import proofs.«117232_j20134806684319_1_alg».proof.Proof.BodyValue
import Idealize.ShloMosaic.Lib.Pipeline.Value

noncomputable section

namespace Cert.KernelIdeal.Region3

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 4 points: the activation row is always block (0, 0); the weight
    tile is block (t, 0); the received entries and the result are block (0, t). -/
theorem idx_facts : ∀ t : Fin cfg3.N,
    win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- The activation row's block is the whole row. -/
theorem iblk_x (c : Dev nD) (t : Fin cfg3.N) (y k : S1x4096.Idx)
    (hk0 : (k 0).val = (y 0).val) (hk1 : (k 1).val = (y 1).val) :
    (iblk3 V c 0 t : Vec Ideal S1x4096 .f32) y = (V c main_arg0 : S1x4096.Idx → Elt Ideal .f32) k := by
  obtain ⟨e00, e01, -⟩ := idx_facts t
  unfold iblk3
  rw [View.read_apply]
  show (V c main_arg0 : S1x4096.Idx → Elt Ideal .f32) _ = (V c main_arg0 : S1x4096.Idx → Elt Ideal .f32) _
  refine congrArg (V c main_arg0 : S1x4096.Idx → Elt Ideal .f32) (funext fun a => Fin.ext ?_)
  match a with
  | ⟨0, _⟩ => show win3_0.index t (0 : Fin 2) * 1 + 1 * (y 0).val = (k 0).val; rw [e00, hk0]; omega
  | ⟨1, _⟩ => show win3_0.index t (1 : Fin 2) * 4096 + 1 * (y 1).val = (k 1).val; rw [e01, hk1]; omega

/-- The weight tile at point `t` is rows `1024 t … 1024 t + 1023` of the weight matrix. -/
theorem iblk_W (c : Dev nD) (t : Fin cfg3.N) (y : S1024x4096.Idx) (k : S4096x4096.Idx)
    (hk0 : (k 0).val = 1024 * t.val + (y 0).val) (hk1 : (k 1).val = (y 1).val) :
    (iblk3 V c 1 t : Vec Ideal S1024x4096 .f32) y = (V c main_arg7 : S4096x4096.Idx → Elt Ideal .f32) k := by
  obtain ⟨-, -, e10, e11, -⟩ := idx_facts t
  unfold iblk3
  rw [View.read_apply]
  show (V c main_arg7 : S4096x4096.Idx → Elt Ideal .f32) _ = (V c main_arg7 : S4096x4096.Idx → Elt Ideal .f32) _
  refine congrArg (V c main_arg7 : S4096x4096.Idx → Elt Ideal .f32) (funext fun a => Fin.ext ?_)
  match a with
  | ⟨0, _⟩ => show win3_1.index t (0 : Fin 2) * 1024 + 1 * (y 0).val = (k 0).val; rw [e10, hk0]; omega
  | ⟨1, _⟩ => show win3_1.index t (1 : Fin 2) * 4096 + 1 * (y 1).val = (k 1).val; rw [e11, hk1]; omega

/-- The received entries at point `t` are entries `1024 t … 1024 t + 1023` of the received row. -/
theorem iblk_prev (c : Dev nD) (t : Fin cfg3.N) (y : S1x1024.Idx) (k : S1x4096.Idx)
    (hk0 : (k 0).val = (y 0).val) (hk1 : (k 1).val = 1024 * t.val + (y 1).val) :
    (iblk3 V c 2 t : Vec Ideal S1x1024 .f32) y = (V c main_v5 : S1x4096.Idx → Elt Ideal .f32) k := by
  obtain ⟨-, -, -, -, e20, e21, -⟩ := idx_facts t
  unfold iblk3
  rw [View.read_apply]
  show (V c main_v5 : S1x4096.Idx → Elt Ideal .f32) _ = (V c main_v5 : S1x4096.Idx → Elt Ideal .f32) _
  refine congrArg (V c main_v5 : S1x4096.Idx → Elt Ideal .f32) (funext fun a => Fin.ext ?_)
  match a with
  | ⟨0, _⟩ => show win3_2.index t (0 : Fin 2) * 1 + 1 * (y 0).val = (k 0).val; rw [e20, hk0]; omega
  | ⟨1, _⟩ => show win3_2.index t (1 : Fin 2) * 1024 + 1 * (y 1).val = (k 1).val; rw [e21, hk1]; omega

/-- What point `t` writes back is block `t` of `fire` of the three arrays as the region finds them. -/
theorem flushed_eq (c : Dev nD) (t : Fin cfg3.N) :
    (dat3 V c).flushed 3 t = ((cfg3.win 3).blk t).view.read (Elt Ideal)
      (fire (V c main_arg0) (V c main_arg7) (V c main_v5)) := by
  show (cfg3.win 3).cut (grid3.coords t) ((dat3 V c).after 3 t) = _
  rw [after3_3]
  unfold out3_3
  rw [View.canon_unit_zero hz]
  simp only [View.ld_unit_zero (S := S1x4096) hz, View.ld_unit_zero (S := S1024x4096) hz, View.ld_unit_zero (S := S1x1024) hz]
  rw [Body.pay3]
  obtain ⟨-, -, -, -, -, -, e30, e31⟩ := idx_facts t
  funext j
  rw [View.read_apply]
  have E0 : ((((cfg3.win 3).blk t).view.emb j) 0).val = (j 0).val := by
    show win3_3.index t (0 : Fin 2) * 1 + 1 * (j 0).val = (j 0).val; rw [e30]; omega
  have E1 : ((((cfg3.win 3).blk t).view.emb j) 1).val = 1024 * t.val + (j 1).val := by
    show win3_3.index t (1 : Fin 2) * 1024 + 1 * (j 1).val = 1024 * t.val + (j 1).val; rw [e31]; omega
  exact fire_tile (iblk3 V c 0 t) (V c main_arg0) (iblk3 V c 1 t) (V c main_arg7) (iblk3 V c 2 t) (V c main_v5)
    j (((cfg3.win 3).blk t).view.emb j)
    (fun k => iblk_x V c t _ _ E0 rfl)
    (fun k => iblk_W V c t _ _ E1 rfl)
    (iblk_prev V c t j _ E0 E1)

/-- An entry of the result row is in point `t`'s block iff each coordinate is in the block's range. -/
theorem mem_blk (t : Fin cfg3.N) (i : S1x4096.Idx) :
    i ∈ ((cfg3.win 3).blk t).view.set ↔ ∀ a : Fin 2, win3_3.index t a * S1x1024.size a ≤ (i a).val ∧ (i a).val < win3_3.index t a * S1x1024.size a + S1x1024.size a := by
  show i ∈ ((View.whole main_v6).slice (win3_3.rect t)).set ↔ _
  rw [View.set_slice_whole, Rect.mem_set_unit]
  exact Iff.rfl

/-- Entry `(0, q)` is written back by point `q / 1024`. -/
theorem cover (i : S1x4096.Idx) : ∃ t : Fin cfg3.N, (cfg3.win 3).flush t = true ∧ i ∈ ((cfg3.win 3).blk t).view.set := by
  have hi0 : (i 0).val < 1 := (i 0).isLt
  have hi1 : (i 1).val < 4096 := (i 1).isLt
  have hN : cfg3.N = 4 := N_3
  let t : Fin cfg3.N := ⟨(i 1).val / 1024, by rw [hN]; omega⟩
  obtain ⟨-, -, -, -, -, -, e30, e31⟩ := idx_facts t
  have ht : t.val = (i 1).val / 1024 := rfl
  refine ⟨t, flush3_3 t, ?_⟩
  rw [mem_blk]
  intro a
  match a with
  | ⟨0, _⟩ => show win3_3.index t (0 : Fin 2) * 1 ≤ (i 0).val ∧ (i 0).val < win3_3.index t (0 : Fin 2) * 1 + 1; rw [e30]; omega
  | ⟨1, _⟩ => show win3_3.index t (1 : Fin 2) * 1024 ≤ (i 1).val ∧ (i 1).val < win3_3.index t (1 : Fin 2) * 1024 + 1024; rw [e31, ht]; omega

/-- The result array after the region: `fire` of the three arrays as the region finds them. -/
theorem final (c : Dev nD) :
    (dat3 V c).arrAt 3 cfg3.N = fire (V c main_arg0) (V c main_arg7) (V c main_v5) :=
  (dat3 V c).arrAt_eq_of_cover 3 (fire (V c main_arg0) (V c main_arg7) (V c main_v5)) (fun t _ => flushed_eq V c t) cover

end Cert.KernelIdeal.Region3

end
-- ==== Proof.Region4.lean ====
/-
  Region 4: the CA1 layer (4096 units) fires on the CA3 layer's previous activation.

  The grid has 4 points; point `t` handles units `1024 t … 1024 t + 1023`. What it writes back is block `t` of
  `fire` of the arrays as the region finds them, and the 4 blocks cover all 4096 entries.
-/
import proofs.«117232_j20134806684319_1_alg».proof.Proof.Gen.KernelIdeal.Frame
import proofs.«117232_j20134806684319_1_alg».proof.Proof.BodyValue
import Idealize.ShloMosaic.Lib.Pipeline.Value

noncomputable section

namespace Cert.KernelIdeal.Region4

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 4 points: the activation row is always block (0, 0); the weight
    tile is block (t, 0); the received entries and the result are block (0, t). -/
theorem idx_facts : ∀ t : Fin cfg4.N,
    win4_0.index t (0 : Fin 2) = 0 ∧ win4_0.index t (1 : Fin 2) = 0
    ∧ win4_1.index t (0 : Fin 2) = t.val ∧ win4_1.index t (1 : Fin 2) = 0
    ∧ win4_2.index t (0 : Fin 2) = 0 ∧ win4_2.index t (1 : Fin 2) = t.val
    ∧ win4_3.index t (0 : Fin 2) = 0 ∧ win4_3.index t (1 : Fin 2) = t.val :=
  (by decide +kernel : ∀ t : Fin grid4.N, _)

/-- The activation row's block is the whole row. -/
theorem iblk_x (c : Dev nD) (t : Fin cfg4.N) (y k : S1x4096.Idx)
    (hk0 : (k 0).val = (y 0).val) (hk1 : (k 1).val = (y 1).val) :
    (iblk4 V c 0 t : Vec Ideal S1x4096 .f32) y = (V c main_arg2 : S1x4096.Idx → Elt Ideal .f32) k := by
  obtain ⟨e00, e01, -⟩ := idx_facts t
  unfold iblk4
  rw [View.read_apply]
  show (V c main_arg2 : S1x4096.Idx → Elt Ideal .f32) _ = (V c main_arg2 : S1x4096.Idx → Elt Ideal .f32) _
  refine congrArg (V c main_arg2 : S1x4096.Idx → Elt Ideal .f32) (funext fun a => Fin.ext ?_)
  match a with
  | ⟨0, _⟩ => show win4_0.index t (0 : Fin 2) * 1 + 1 * (y 0).val = (k 0).val; rw [e00, hk0]; omega
  | ⟨1, _⟩ => show win4_0.index t (1 : Fin 2) * 4096 + 1 * (y 1).val = (k 1).val; rw [e01, hk1]; omega

/-- The weight tile at point `t` is rows `1024 t … 1024 t + 1023` of the weight matrix. -/
theorem iblk_W (c : Dev nD) (t : Fin cfg4.N) (y : S1024x4096.Idx) (k : S4096x4096.Idx)
    (hk0 : (k 0).val = 1024 * t.val + (y 0).val) (hk1 : (k 1).val = (y 1).val) :
    (iblk4 V c 1 t : Vec Ideal S1024x4096 .f32) y = (V c main_arg8 : S4096x4096.Idx → Elt Ideal .f32) k := by
  obtain ⟨-, -, e10, e11, -⟩ := idx_facts t
  unfold iblk4
  rw [View.read_apply]
  show (V c main_arg8 : S4096x4096.Idx → Elt Ideal .f32) _ = (V c main_arg8 : S4096x4096.Idx → Elt Ideal .f32) _
  refine congrArg (V c main_arg8 : S4096x4096.Idx → Elt Ideal .f32) (funext fun a => Fin.ext ?_)
  match a with
  | ⟨0, _⟩ => show win4_1.index t (0 : Fin 2) * 1024 + 1 * (y 0).val = (k 0).val; rw [e10, hk0]; omega
  | ⟨1, _⟩ => show win4_1.index t (1 : Fin 2) * 4096 + 1 * (y 1).val = (k 1).val; rw [e11, hk1]; omega

/-- The received entries at point `t` are entries `1024 t … 1024 t + 1023` of the received row. -/
theorem iblk_prev (c : Dev nD) (t : Fin cfg4.N) (y : S1x1024.Idx) (k : S1x4096.Idx)
    (hk0 : (k 0).val = (y 0).val) (hk1 : (k 1).val = 1024 * t.val + (y 1).val) :
    (iblk4 V c 2 t : Vec Ideal S1x1024 .f32) y = (V c main_v2 : S1x4096.Idx → Elt Ideal .f32) k := by
  obtain ⟨-, -, -, -, e20, e21, -⟩ := idx_facts t
  unfold iblk4
  rw [View.read_apply]
  show (V c main_v2 : S1x4096.Idx → Elt Ideal .f32) _ = (V c main_v2 : S1x4096.Idx → Elt Ideal .f32) _
  refine congrArg (V c main_v2 : S1x4096.Idx → Elt Ideal .f32) (funext fun a => Fin.ext ?_)
  match a with
  | ⟨0, _⟩ => show win4_2.index t (0 : Fin 2) * 1 + 1 * (y 0).val = (k 0).val; rw [e20, hk0]; omega
  | ⟨1, _⟩ => show win4_2.index t (1 : Fin 2) * 1024 + 1 * (y 1).val = (k 1).val; rw [e21, hk1]; omega

/-- What point `t` writes back is block `t` of `fire` of the three arrays as the region finds them. -/
theorem flushed_eq (c : Dev nD) (t : Fin cfg4.N) :
    (dat4 V c).flushed 3 t = ((cfg4.win 3).blk t).view.read (Elt Ideal)
      (fire (V c main_arg2) (V c main_arg8) (V c main_v2)) := by
  show (cfg4.win 3).cut (grid4.coords t) ((dat4 V c).after 3 t) = _
  rw [after4_3]
  unfold out4_3
  rw [View.canon_unit_zero hz]
  simp only [View.ld_unit_zero (S := S1x4096) hz, View.ld_unit_zero (S := S1024x4096) hz, View.ld_unit_zero (S := S1x1024) hz]
  rw [Body.pay4]
  obtain ⟨-, -, -, -, -, -, e30, e31⟩ := idx_facts t
  funext j
  rw [View.read_apply]
  have E0 : ((((cfg4.win 3).blk t).view.emb j) 0).val = (j 0).val := by
    show win4_3.index t (0 : Fin 2) * 1 + 1 * (j 0).val = (j 0).val; rw [e30]; omega
  have E1 : ((((cfg4.win 3).blk t).view.emb j) 1).val = 1024 * t.val + (j 1).val := by
    show win4_3.index t (1 : Fin 2) * 1024 + 1 * (j 1).val = 1024 * t.val + (j 1).val; rw [e31]; omega
  exact fire_tile (iblk4 V c 0 t) (V c main_arg2) (iblk4 V c 1 t) (V c main_arg8) (iblk4 V c 2 t) (V c main_v2)
    j (((cfg4.win 3).blk t).view.emb j)
    (fun k => iblk_x V c t _ _ E0 rfl)
    (fun k => iblk_W V c t _ _ E1 rfl)
    (iblk_prev V c t j _ E0 E1)

/-- An entry of the result row is in point `t`'s block iff each coordinate is in the block's range. -/
theorem mem_blk (t : Fin cfg4.N) (i : S1x4096.Idx) :
    i ∈ ((cfg4.win 3).blk t).view.set ↔ ∀ a : Fin 2, win4_3.index t a * S1x1024.size a ≤ (i a).val ∧ (i a).val < win4_3.index t a * S1x1024.size a + S1x1024.size a := by
  show i ∈ ((View.whole main_v7).slice (win4_3.rect t)).set ↔ _
  rw [View.set_slice_whole, Rect.mem_set_unit]
  exact Iff.rfl

/-- Entry `(0, q)` is written back by point `q / 1024`. -/
theorem cover (i : S1x4096.Idx) : ∃ t : Fin cfg4.N, (cfg4.win 3).flush t = true ∧ i ∈ ((cfg4.win 3).blk t).view.set := by
  have hi0 : (i 0).val < 1 := (i 0).isLt
  have hi1 : (i 1).val < 4096 := (i 1).isLt
  have hN : cfg4.N = 4 := N_4
  let t : Fin cfg4.N := ⟨(i 1).val / 1024, by rw [hN]; omega⟩
  obtain ⟨-, -, -, -, -, -, e30, e31⟩ := idx_facts t
  have ht : t.val = (i 1).val / 1024 := rfl
  refine ⟨t, flush4_3 t, ?_⟩
  rw [mem_blk]
  intro a
  match a with
  | ⟨0, _⟩ => show win4_3.index t (0 : Fin 2) * 1 ≤ (i 0).val ∧ (i 0).val < win4_3.index t (0 : Fin 2) * 1 + 1; rw [e30]; omega
  | ⟨1, _⟩ => show win4_3.index t (1 : Fin 2) * 1024 ≤ (i 1).val ∧ (i 1).val < win4_3.index t (1 : Fin 2) * 1024 + 1024; rw [e31, ht]; omega

/-- The result array after the region: `fire` of the three arrays as the region finds them. -/
theorem final (c : Dev nD) :
    (dat4 V c).arrAt 3 cfg4.N = fire (V c main_arg2) (V c main_arg8) (V c main_v2) :=
  (dat4 V c).arrAt_eq_of_cover 3 (fire (V c main_arg2) (V c main_arg8) (V c main_v2)) (fun t _ => flushed_eq V c t) cover

end Cert.KernelIdeal.Region4

end
-- ==== Proof.Region5.lean ====
/-
  Region 5: the entorhinal layer (4096 units) fires on the CA1 activation, received on top of the external input.

  The grid has 4 points; point `t` handles units `1024 t … 1024 t + 1023`. What it writes back is block `t` of
  `fire` of the arrays as the region finds them, and the 4 blocks cover all 4096 entries.
-/
import proofs.«117232_j20134806684319_1_alg».proof.Proof.Gen.KernelIdeal.Frame
import proofs.«117232_j20134806684319_1_alg».proof.Proof.BodyValue
import Idealize.ShloMosaic.Lib.Pipeline.Value

noncomputable section

namespace Cert.KernelIdeal.Region5

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each of the 4 points: the activation row is always block (0, 0); the weight
    tile is block (t, 0); the received entries and the result are block (0, t). -/
theorem idx_facts : ∀ t : Fin cfg5.N,
    win5_0.index t (0 : Fin 2) = 0 ∧ win5_0.index t (1 : Fin 2) = 0
    ∧ win5_1.index t (0 : Fin 2) = t.val ∧ win5_1.index t (1 : Fin 2) = 0
    ∧ win5_2.index t (0 : Fin 2) = 0 ∧ win5_2.index t (1 : Fin 2) = t.val
    ∧ win5_3.index t (0 : Fin 2) = 0 ∧ win5_3.index t (1 : Fin 2) = t.val :=
  (by decide +kernel : ∀ t : Fin grid5.N, _)

/-- The activation row's block is the whole row. -/
theorem iblk_x (c : Dev nD) (t : Fin cfg5.N) (y k : S1x4096.Idx)
    (hk0 : (k 0).val = (y 0).val) (hk1 : (k 1).val = (y 1).val) :
    (iblk5 V c 0 t : Vec Ideal S1x4096 .f32) y = (V c main_arg3 : S1x4096.Idx → Elt Ideal .f32) k := by
  obtain ⟨e00, e01, -⟩ := idx_facts t
  unfold iblk5
  rw [View.read_apply]
  show (V c main_arg3 : S1x4096.Idx → Elt Ideal .f32) _ = (V c main_arg3 : S1x4096.Idx → Elt Ideal .f32) _
  refine congrArg (V c main_arg3 : S1x4096.Idx → Elt Ideal .f32) (funext fun a => Fin.ext ?_)
  match a with
  | ⟨0, _⟩ => show win5_0.index t (0 : Fin 2) * 1 + 1 * (y 0).val = (k 0).val; rw [e00, hk0]; omega
  | ⟨1, _⟩ => show win5_0.index t (1 : Fin 2) * 4096 + 1 * (y 1).val = (k 1).val; rw [e01, hk1]; omega

/-- The weight tile at point `t` is rows `1024 t … 1024 t + 1023` of the weight matrix. -/
theorem iblk_W (c : Dev nD) (t : Fin cfg5.N) (y : S1024x4096.Idx) (k : S4096x4096.Idx)
    (hk0 : (k 0).val = 1024 * t.val + (y 0).val) (hk1 : (k 1).val = (y 1).val) :
    (iblk5 V c 1 t : Vec Ideal S1024x4096 .f32) y = (V c main_arg9 : S4096x4096.Idx → Elt Ideal .f32) k := by
  obtain ⟨-, -, e10, e11, -⟩ := idx_facts t
  unfold iblk5
  rw [View.read_apply]
  show (V c main_arg9 : S4096x4096.Idx → Elt Ideal .f32) _ = (V c main_arg9 : S4096x4096.Idx → Elt Ideal .f32) _
  refine congrArg (V c main_arg9 : S4096x4096.Idx → Elt Ideal .f32) (funext fun a => Fin.ext ?_)
  match a with
  | ⟨0, _⟩ => show win5_1.index t (0 : Fin 2) * 1024 + 1 * (y 0).val = (k 0).val; rw [e10, hk0]; omega
  | ⟨1, _⟩ => show win5_1.index t (1 : Fin 2) * 4096 + 1 * (y 1).val = (k 1).val; rw [e11, hk1]; omega

/-- The received entries at point `t` are entries `1024 t … 1024 t + 1023` of the received row. -/
theorem iblk_prev (c : Dev nD) (t : Fin cfg5.N) (y : S1x1024.Idx) (k : S1x4096.Idx)
    (hk0 : (k 0).val = (y 0).val) (hk1 : (k 1).val = 1024 * t.val + (y 1).val) :
    (iblk5 V c 2 t : Vec Ideal S1x1024 .f32) y = (V c main_arg10 : S1x4096.Idx → Elt Ideal .f32) k := by
  obtain ⟨-, -, -, -, e20, e21, -⟩ := idx_facts t
  unfold iblk5
  rw [View.read_apply]
  show (V c main_arg10 : S1x4096.Idx → Elt Ideal .f32) _ = (V c main_arg10 : S1x4096.Idx → Elt Ideal .f32) _
  refine congrArg (V c main_arg10 : S1x4096.Idx → Elt Ideal .f32) (funext fun a => Fin.ext ?_)
  match a with
  | ⟨0, _⟩ => show win5_2.index t (0 : Fin 2) * 1 + 1 * (y 0).val = (k 0).val; rw [e20, hk0]; omega
  | ⟨1, _⟩ => show win5_2.index t (1 : Fin 2) * 1024 + 1 * (y 1).val = (k 1).val; rw [e21, hk1]; omega

/-- What point `t` writes back is block `t` of `fire` of the three arrays as the region finds them. -/
theorem flushed_eq (c : Dev nD) (t : Fin cfg5.N) :
    (dat5 V c).flushed 3 t = ((cfg5.win 3).blk t).view.read (Elt Ideal)
      (fire (V c main_arg3) (V c main_arg9) (V c main_arg10)) := by
  show (cfg5.win 3).cut (grid5.coords t) ((dat5 V c).after 3 t) = _
  rw [after5_3]
  unfold out5_3
  rw [View.canon_unit_zero hz]
  simp only [View.ld_unit_zero (S := S1x4096) hz, View.ld_unit_zero (S := S1024x4096) hz, View.ld_unit_zero (S := S1x1024) hz]
  rw [Body.pay5]
  obtain ⟨-, -, -, -, -, -, e30, e31⟩ := idx_facts t
  funext j
  rw [View.read_apply]
  have E0 : ((((cfg5.win 3).blk t).view.emb j) 0).val = (j 0).val := by
    show win5_3.index t (0 : Fin 2) * 1 + 1 * (j 0).val = (j 0).val; rw [e30]; omega
  have E1 : ((((cfg5.win 3).blk t).view.emb j) 1).val = 1024 * t.val + (j 1).val := by
    show win5_3.index t (1 : Fin 2) * 1024 + 1 * (j 1).val = 1024 * t.val + (j 1).val; rw [e31]; omega
  exact fire_tile (iblk5 V c 0 t) (V c main_arg3) (iblk5 V c 1 t) (V c main_arg9) (iblk5 V c 2 t) (V c main_arg10)
    j (((cfg5.win 3).blk t).view.emb j)
    (fun k => iblk_x V c t _ _ E0 rfl)
    (fun k => iblk_W V c t _ _ E1 rfl)
    (iblk_prev V c t j _ E0 E1)

/-- An entry of the result row is in point `t`'s block iff each coordinate is in the block's range. -/
theorem mem_blk (t : Fin cfg5.N) (i : S1x4096.Idx) :
    i ∈ ((cfg5.win 3).blk t).view.set ↔ ∀ a : Fin 2, win5_3.index t a * S1x1024.size a ≤ (i a).val ∧ (i a).val < win5_3.index t a * S1x1024.size a + S1x1024.size a := by
  show i ∈ ((View.whole main_v8).slice (win5_3.rect t)).set ↔ _
  rw [View.set_slice_whole, Rect.mem_set_unit]
  exact Iff.rfl

/-- Entry `(0, q)` is written back by point `q / 1024`. -/
theorem cover (i : S1x4096.Idx) : ∃ t : Fin cfg5.N, (cfg5.win 3).flush t = true ∧ i ∈ ((cfg5.win 3).blk t).view.set := by
  have hi0 : (i 0).val < 1 := (i 0).isLt
  have hi1 : (i 1).val < 4096 := (i 1).isLt
  have hN : cfg5.N = 4 := N_5
  let t : Fin cfg5.N := ⟨(i 1).val / 1024, by rw [hN]; omega⟩
  obtain ⟨-, -, -, -, -, -, e30, e31⟩ := idx_facts t
  have ht : t.val = (i 1).val / 1024 := rfl
  refine ⟨t, flush5_3 t, ?_⟩
  rw [mem_blk]
  intro a
  match a with
  | ⟨0, _⟩ => show win5_3.index t (0 : Fin 2) * 1 ≤ (i 0).val ∧ (i 0).val < win5_3.index t (0 : Fin 2) * 1 + 1; rw [e30]; omega
  | ⟨1, _⟩ => show win5_3.index t (1 : Fin 2) * 1024 ≤ (i 1).val ∧ (i 1).val < win5_3.index t (1 : Fin 2) * 1024 + 1024; rw [e31, ht]; omega

/-- The result array after the region: `fire` of the three arrays as the region finds them. -/
theorem final (c : Dev nD) :
    (dat5 V c).arrAt 3 cfg5.N = fire (V c main_arg3) (V c main_arg9) (V c main_arg10) :=
  (dat5 V c).arrAt_eq_of_cover 3 (fire (V c main_arg3) (V c main_arg9) (V c main_arg10)) (fun t _ => flushed_eq V c t) cover

end Cert.KernelIdeal.Region5

end
-- ==== Proof.Fold.lean ====
/-
  The kernel program's four results as functions of its arguments.

  Between the regions nothing moves: a region rewrites its own result array and leaves every other buffer — its
  input arrays included — as it found it, and the host stretch before the first region only fills three rows with
  zeros. So each region finds the arguments as launched, the zero rows at rest, and the earlier regions' results
  where they were left; and after the last region each of the four results still holds what its region wrote:

    dentate      fire(EC, W_EC→DG, rest)
    CA3          fire(EC, W_EC→CA3, drive(CA3, W_CA3→CA3, drive(DG, W_DG→CA3, rest)))
    CA1          fire(CA3, W_CA3→CA1, rest)
    entorhinal   fire(CA1, W_CA1→EC, external input)
-/
import proofs.«117232_j20134806684319_1_alg».proof.Proof.Gen.KernelIdeal.Frame
import proofs.«117232_j20134806684319_1_alg».proof.Proof.Region0
import proofs.«117232_j20134806684319_1_alg».proof.Proof.Region1
import proofs.«117232_j20134806684319_1_alg».proof.Proof.Region2
import proofs.«117232_j20134806684319_1_alg».proof.Proof.Region3
import proofs.«117232_j20134806684319_1_alg».proof.Proof.Region4
import proofs.«117232_j20134806684319_1_alg».proof.Proof.Region5
import Idealize.ShloMosaic.Lib.StableHlo.Run

noncomputable section

namespace Cert.KernelIdeal.Fold

open Cert.KernelIdeal Cert.KernelIdeal.Gen Cert.Layer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The host stretch before the first region -/

/-- A buffer none of the six host operations writes is, when the first region is entered, as launched. -/
theorem W1_keep (c : Dev nD) (b : Ref sig .tc) (h0 : b ≠ main_cst) (h1 : b ≠ main_v0) (h2 : b ≠ main_cst_0)
    (h3 : b ≠ main_v1) (h4 : b ≠ main_cst_1) (h5 : b ≠ main_v2) :
    W1 m ρ c (Proc.devRef .tc b) = m ((c : Thread nD τ).loc b) :=
  (StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals first
      | exact StableHlo.devRef_ne_of_ne h0 | exact StableHlo.devRef_ne_of_ne h1 | exact StableHlo.devRef_ne_of_ne h2
      | exact StableHlo.devRef_ne_of_ne h3 | exact StableHlo.devRef_ne_of_ne h4 | exact StableHlo.devRef_ne_of_ne h5))).trans rfl

/-- A zero word broadcast to a row is a layer at rest. -/
theorem zeros_rest {M : ℕ} (h : (⟨0, ![]⟩ : Shape).BroadcastsInDim ⟨2, ![1, M]⟩ ![]) :
    broadcastInDim ⟨2, ![1, M]⟩ ![] h (constant (F := Ideal) ⟨0, ![]⟩ .f32 0x00000000#32) = rest M :=
  funext fun i => (broadcastInDim_apply _ h _ i (fun a => a.elim0) (fun a => a.elim0)).trans Ideal.ofBits_zero_f32

/-- The dentate layer's received row starts at rest. -/
theorem W1_v0 (c : Dev nD) : (W1 m ρ c (Proc.devRef .tc main_v0) : S1x8192.Idx → Elt Ideal .f32) = rest 8192 := by
  show StableHlo.after hostOps0 (W0 m ρ c) (Proc.devRef .tc main_v0) = _
  after_results
  exact zeros_rest _

/-- The CA3 layer's received row starts at rest. -/
theorem W1_v1 (c : Dev nD) : (W1 m ρ c (Proc.devRef .tc main_v1) : S1x4096.Idx → Elt Ideal .f32) = rest 4096 := by
  show StableHlo.after hostOps0 (W0 m ρ c) (Proc.devRef .tc main_v1) = _
  after_results
  exact zeros_rest _

/-- The CA1 layer's received row starts at rest. -/
theorem W1_v2 (c : Dev nD) : (W1 m ρ c (Proc.devRef .tc main_v2) : S1x4096.Idx → Elt Ideal .f32) = rest 4096 := by
  show StableHlo.after hostOps0 (W0 m ρ c) (Proc.devRef .tc main_v2) = _
  after_results
  exact zeros_rest _

/-! ## What each region leaves alone -/

/-- Region 0 changes no buffer but its result array: its three input arrays come out as they went in, and it
    touches nothing else. -/
theorem keep0 (c : Dev nD) (b : Ref sig .tc) (hb : b ≠ main_v3) :
    W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg4
  · subst h1; exact (W2_arr m ρ c 1).trans (((dat0 (V1 m ρ) c).arrAt_in 1 rfl _).trans (A_eq0 (V1 m ρ) c 1))
  by_cases h2 : b = main_v0
  · subst h2; exact (W2_arr m ρ c 2).trans (((dat0 (V1 m ρ) c).arrAt_in 2 rfl _).trans (A_eq0 (V1 m ρ) c 2))
  refine W2_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => hb e.symm

/-- Region 1 changes no buffer but its result array: its three input arrays come out as they went in, and it
    touches nothing else. -/
theorem keep1 (c : Dev nD) (b : Ref sig .tc) (hb : b ≠ main_v4) :
    W3 m ρ c (Proc.devRef .tc b) = W2 m ρ c (Proc.devRef .tc b) := by
  by_cases h0 : b = main_arg1
  · subst h0; exact (W3_arr m ρ c 0).trans (((dat1 (V2 m ρ) c).arrAt_in 0 rfl _).trans (A_eq1 (V2 m ρ) c 0))
  by_cases h1 : b = main_arg5
  · subst h1; exact (W3_arr m ρ c 1).trans (((dat1 (V2 m ρ) c).arrAt_in 1 rfl _).trans (A_eq1 (V2 m ρ) c 1))
  by_cases h2 : b = main_v1
  · subst h2; exact (W3_arr m ρ c 2).trans (((dat1 (V2 m ρ) c).arrAt_in 2 rfl _).trans (A_eq1 (V2 m ρ) c 2))
  refine W3_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => hb e.symm

/-- Region 2 changes no buffer but its result array: its three input arrays come out as they went in, and it
    touches nothing else. -/
theorem keep2 (c : Dev nD) (b : Ref sig .tc) (hb : b ≠ main_v5) :
    W4 m ρ c (Proc.devRef .tc b) = W3 m ρ c (Proc.devRef .tc b) := by
  by_cases h0 : b = main_arg2
  · subst h0; exact (W4_arr m ρ c 0).trans (((dat2 (V3 m ρ) c).arrAt_in 0 rfl _).trans (A_eq2 (V3 m ρ) c 0))
  by_cases h1 : b = main_arg6
  · subst h1; exact (W4_arr m ρ c 1).trans (((dat2 (V3 m ρ) c).arrAt_in 1 rfl _).trans (A_eq2 (V3 m ρ) c 1))
  by_cases h2 : b = main_v4
  · subst h2; exact (W4_arr m ρ c 2).trans (((dat2 (V3 m ρ) c).arrAt_in 2 rfl _).trans (A_eq2 (V3 m ρ) c 2))
  refine W4_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => hb e.symm

/-- Region 3 changes no buffer but its result array: its three input arrays come out as they went in, and it
    touches nothing else. -/
theorem keep3 (c : Dev nD) (b : Ref sig .tc) (hb : b ≠ main_v6) :
    W5 m ρ c (Proc.devRef .tc b) = W4 m ρ c (Proc.devRef .tc b) := by
  by_cases h0 : b = main_arg0
  · subst h0; exact (W5_arr m ρ c 0).trans (((dat3 (V4 m ρ) c).arrAt_in 0 rfl _).trans (A_eq3 (V4 m ρ) c 0))
  by_cases h1 : b = main_arg7
  · subst h1; exact (W5_arr m ρ c 1).trans (((dat3 (V4 m ρ) c).arrAt_in 1 rfl _).trans (A_eq3 (V4 m ρ) c 1))
  by_cases h2 : b = main_v5
  · subst h2; exact (W5_arr m ρ c 2).trans (((dat3 (V4 m ρ) c).arrAt_in 2 rfl _).trans (A_eq3 (V4 m ρ) c 2))
  refine W5_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => hb e.symm

/-- Region 4 changes no buffer but its result array: its three input arrays come out as they went in, and it
    touches nothing else. -/
theorem keep4 (c : Dev nD) (b : Ref sig .tc) (hb : b ≠ main_v7) :
    W6 m ρ c (Proc.devRef .tc b) = W5 m ρ c (Proc.devRef .tc b) := by
  by_cases h0 : b = main_arg2
  · subst h0; exact (W6_arr m ρ c 0).trans (((dat4 (V5 m ρ) c).arrAt_in 0 rfl _).trans (A_eq4 (V5 m ρ) c 0))
  by_cases h1 : b = main_arg8
  · subst h1; exact (W6_arr m ρ c 1).trans (((dat4 (V5 m ρ) c).arrAt_in 1 rfl _).trans (A_eq4 (V5 m ρ) c 1))
  by_cases h2 : b = main_v2
  · subst h2; exact (W6_arr m ρ c 2).trans (((dat4 (V5 m ρ) c).arrAt_in 2 rfl _).trans (A_eq4 (V5 m ρ) c 2))
  refine W6_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => hb e.symm

/-- Region 5 changes no buffer but its result array: its three input arrays come out as they went in, and it
    touches nothing else. -/
theorem keep5 (c : Dev nD) (b : Ref sig .tc) (hb : b ≠ main_v8) :
    W7 m ρ c (Proc.devRef .tc b) = W6 m ρ c (Proc.devRef .tc b) := by
  by_cases h0 : b = main_arg3
  · subst h0; exact (W7_arr m ρ c 0).trans (((dat5 (V6 m ρ) c).arrAt_in 0 rfl _).trans (A_eq5 (V6 m ρ) c 0))
  by_cases h1 : b = main_arg9
  · subst h1; exact (W7_arr m ρ c 1).trans (((dat5 (V6 m ρ) c).arrAt_in 1 rfl _).trans (A_eq5 (V6 m ρ) c 1))
  by_cases h2 : b = main_arg10
  · subst h2; exact (W7_arr m ρ c 2).trans (((dat5 (V6 m ρ) c).arrAt_in 2 rfl _).trans (A_eq5 (V6 m ρ) c 2))
  refine W7_of_ne m ρ c b fun w => ?_
  match w with
  | ⟨0, _⟩ => exact fun e => h0 e.symm
  | ⟨1, _⟩ => exact fun e => h1 e.symm
  | ⟨2, _⟩ => exact fun e => h2 e.symm
  | ⟨3, _⟩ => exact fun e => hb e.symm

/-! ## The arguments and the zero rows, as each region finds them -/

theorem congr3 {α β γ δ : Type} (f : α → β → γ → δ) {a a' : α} {b b' : β} {c c' : γ} (ha : a = a') (hb : b = b') (hc : c = c') :
    f a b c = f a' b' c' := by subst ha hb hc; rfl

/-- A buffer no region writes and no host operation writes is as launched at the entry of every region. -/
theorem at2 (c : Dev nD) (b : Ref sig .tc) (k3 : b ≠ main_v3) : W2 m ρ c (Proc.devRef .tc b) = W1 m ρ c (Proc.devRef .tc b) :=
  keep0 m ρ c b k3
theorem at3 (c : Dev nD) (b : Ref sig .tc) (k3 : b ≠ main_v3) (k4 : b ≠ main_v4) : W3 m ρ c (Proc.devRef .tc b) = W1 m ρ c (Proc.devRef .tc b) :=
  (keep1 m ρ c b k4).trans (at2 m ρ c b k3)
theorem at4 (c : Dev nD) (b : Ref sig .tc) (k3 : b ≠ main_v3) (k4 : b ≠ main_v4) (k5 : b ≠ main_v5) : W4 m ρ c (Proc.devRef .tc b) = W1 m ρ c (Proc.devRef .tc b) :=
  (keep2 m ρ c b k5).trans (at3 m ρ c b k3 k4)
theorem at5 (c : Dev nD) (b : Ref sig .tc) (k3 : b ≠ main_v3) (k4 : b ≠ main_v4) (k5 : b ≠ main_v5) (k6 : b ≠ main_v6) : W5 m ρ c (Proc.devRef .tc b) = W1 m ρ c (Proc.devRef .tc b) :=
  (keep3 m ρ c b k6).trans (at4 m ρ c b k3 k4 k5)
theorem at6 (c : Dev nD) (b : Ref sig .tc) (k3 : b ≠ main_v3) (k4 : b ≠ main_v4) (k5 : b ≠ main_v5) (k6 : b ≠ main_v6) (k7 : b ≠ main_v7) : W6 m ρ c (Proc.devRef .tc b) = W1 m ρ c (Proc.devRef .tc b) :=
  (keep4 m ρ c b k7).trans (at5 m ρ c b k3 k4 k5 k6)

/-! ## What each region writes, from the launch memory -/

/-- After region 0 the dentate result holds `fire` of the entorhinal row from rest. -/
theorem W2_v3 (c : Dev nD) : (W2 m ρ c (Proc.devRef .tc main_v3) : S1x8192.Idx → Elt Ideal .f32)
    = fire (m ((c : Thread nD τ).loc main_arg0)) (m ((c : Thread nD τ).loc main_arg4)) (rest 8192) :=
  (W2_arr m ρ c 3).trans ((Region0.final (V1 m ρ) c).trans (congr3 fire
    (W1_keep m ρ c main_arg0 (by decide) (by decide) (by decide) (by decide) (by decide) (by decide))
    (W1_keep m ρ c main_arg4 (by decide) (by decide) (by decide) (by decide) (by decide) (by decide))
    (W1_v0 m ρ c)))

/-- After region 1 the CA3 layer has received the dentate row. -/
theorem W3_v4 (c : Dev nD) : (W3 m ρ c (Proc.devRef .tc main_v4) : S1x4096.Idx → Elt Ideal .f32)
    = drive (m ((c : Thread nD τ).loc main_arg1)) (m ((c : Thread nD τ).loc main_arg5)) (rest 4096) :=
  (W3_arr m ρ c 3).trans ((Region1.final (V2 m ρ) c).trans (congr3 drive
    ((at2 m ρ c main_arg1 (by decide)).trans (W1_keep m ρ c main_arg1 (by decide) (by decide) (by decide) (by decide) (by decide) (by decide)))
    ((at2 m ρ c main_arg5 (by decide)).trans (W1_keep m ρ c main_arg5 (by decide) (by decide) (by decide) (by decide) (by decide) (by decide)))
    ((at2 m ρ c main_v1 (by decide)).trans (W1_v1 m ρ c))))

/-- After region 2 it has also received its own previous activation. -/
theorem W4_v5 (c : Dev nD) : (W4 m ρ c (Proc.devRef .tc main_v5) : S1x4096.Idx → Elt Ideal .f32)
    = drive (m ((c : Thread nD τ).loc main_arg2)) (m ((c : Thread nD τ).loc main_arg6)) (drive (m ((c : Thread nD τ).loc main_arg1)) (m ((c : Thread nD τ).loc main_arg5)) (rest 4096)) :=
  (W4_arr m ρ c 3).trans ((Region2.final (V3 m ρ) c).trans (congr3 drive
    ((at3 m ρ c main_arg2 (by decide) (by decide)).trans (W1_keep m ρ c main_arg2 (by decide) (by decide) (by decide) (by decide) (by decide) (by decide)))
    ((at3 m ρ c main_arg6 (by decide) (by decide)).trans (W1_keep m ρ c main_arg6 (by decide) (by decide) (by decide) (by decide) (by decide) (by decide)))
    (W3_v4 m ρ c)))

/-- After region 3 the CA3 result holds `fire` on the three connections. -/
theorem W5_v6 (c : Dev nD) : (W5 m ρ c (Proc.devRef .tc main_v6) : S1x4096.Idx → Elt Ideal .f32)
    = fire (m ((c : Thread nD τ).loc main_arg0)) (m ((c : Thread nD τ).loc main_arg7)) (drive (m ((c : Thread nD τ).loc main_arg2)) (m ((c : Thread nD τ).loc main_arg6)) (drive (m ((c : Thread nD τ).loc main_arg1)) (m ((c : Thread nD τ).loc main_arg5)) (rest 4096))) :=
  (W5_arr m ρ c 3).trans ((Region3.final (V4 m ρ) c).trans (congr3 fire
    ((at4 m ρ c main_arg0 (by decide) (by decide) (by decide)).trans (W1_keep m ρ c main_arg0 (by decide) (by decide) (by decide) (by decide) (by decide) (by decide)))
    ((at4 m ρ c main_arg7 (by decide) (by decide) (by decide)).trans (W1_keep m ρ c main_arg7 (by decide) (by decide) (by decide) (by decide) (by decide) (by decide)))
    (W4_v5 m ρ c)))

/-- After region 4 the CA1 result holds `fire` of the CA3 row from rest. -/
theorem W6_v7 (c : Dev nD) : (W6 m ρ c (Proc.devRef .tc main_v7) : S1x4096.Idx → Elt Ideal .f32)
    = fire (m ((c : Thread nD τ).loc main_arg2)) (m ((c : Thread nD τ).loc main_arg8)) (rest 4096) :=
  (W6_arr m ρ c 3).trans ((Region4.final (V5 m ρ) c).trans (congr3 fire
    ((at5 m ρ c main_arg2 (by decide) (by decide) (by decide) (by decide)).trans (W1_keep m ρ c main_arg2 (by decide) (by decide) (by decide) (by decide) (by decide) (by decide)))
    ((at5 m ρ c main_arg8 (by decide) (by decide) (by decide) (by decide)).trans (W1_keep m ρ c main_arg8 (by decide) (by decide) (by decide) (by decide) (by decide) (by decide)))
    ((at5 m ρ c main_v2 (by decide) (by decide) (by decide) (by decide)).trans (W1_v2 m ρ c))))

/-- After region 5 the entorhinal result holds `fire` of the CA1 row on top of the external input. -/
theorem W7_v8 (c : Dev nD) : (W7 m ρ c (Proc.devRef .tc main_v8) : S1x4096.Idx → Elt Ideal .f32)
    = fire (m ((c : Thread nD τ).loc main_arg3)) (m ((c : Thread nD τ).loc main_arg9)) (m ((c : Thread nD τ).loc main_arg10)) :=
  (W7_arr m ρ c 3).trans ((Region5.final (V6 m ρ) c).trans (congr3 fire
    ((at6 m ρ c main_arg3 (by decide) (by decide) (by decide) (by decide) (by decide)).trans (W1_keep m ρ c main_arg3 (by decide) (by decide) (by decide) (by decide) (by decide) (by decide)))
    ((at6 m ρ c main_arg9 (by decide) (by decide) (by decide) (by decide) (by decide)).trans (W1_keep m ρ c main_arg9 (by decide) (by decide) (by decide) (by decide) (by decide) (by decide)))
    ((at6 m ρ c main_arg10 (by decide) (by decide) (by decide) (by decide) (by decide)).trans (W1_keep m ρ c main_arg10 (by decide) (by decide) (by decide) (by decide) (by decide) (by decide)))))

/-! ## The four results at the end of the run -/

theorem end_DG (c : Dev nD) : (W7 m ρ c (Proc.devRef .tc main_v3) : S1x8192.Idx → Elt Ideal .f32)
    = fire (m ((c : Thread nD τ).loc main_arg0)) (m ((c : Thread nD τ).loc main_arg4)) (rest 8192) :=
  (keep5 m ρ c main_v3 (by decide)).trans ((keep4 m ρ c main_v3 (by decide)).trans ((keep3 m ρ c main_v3 (by decide)).trans
    ((keep2 m ρ c main_v3 (by decide)).trans ((keep1 m ρ c main_v3 (by decide)).trans (W2_v3 m ρ c)))))

theorem end_CA3 (c : Dev nD) : (W7 m ρ c (Proc.devRef .tc main_v6) : S1x4096.Idx → Elt Ideal .f32)
    = fire (m ((c : Thread nD τ).loc main_arg0)) (m ((c : Thread nD τ).loc main_arg7)) (drive (m ((c : Thread nD τ).loc main_arg2)) (m ((c : Thread nD τ).loc main_arg6)) (drive (m ((c : Thread nD τ).loc main_arg1)) (m ((c : Thread nD τ).loc main_arg5)) (rest 4096))) :=
  (keep5 m ρ c main_v6 (by decide)).trans ((keep4 m ρ c main_v6 (by decide)).trans (W5_v6 m ρ c))

theorem end_CA1 (c : Dev nD) : (W7 m ρ c (Proc.devRef .tc main_v7) : S1x4096.Idx → Elt Ideal .f32)
    = fire (m ((c : Thread nD τ).loc main_arg2)) (m ((c : Thread nD τ).loc main_arg8)) (rest 4096) :=
  (keep5 m ρ c main_v7 (by decide)).trans (W6_v7 m ρ c)

theorem end_EC (c : Dev nD) : (W7 m ρ c (Proc.devRef .tc main_v8) : S1x4096.Idx → Elt Ideal .f32)
    = fire (m ((c : Thread nD τ).loc main_arg3)) (m ((c : Thread nD τ).loc main_arg9)) (m ((c : Thread nD τ).loc main_arg10)) :=
  W7_v8 m ρ c

end Cert.KernelIdeal.Fold

end
-- ==== Proof.Reference.lean ====
/-
  The reference program's four results, read entry by entry.

  The reference transposes each weight matrix and multiplies the activation row by it, which at entry `(0, j)` is
  `Σ_k x[0, k] · W[j, k]` — the row against row `j` of the untransposed matrix; it adds the connections of a layer
  in the order written and applies the logistic function spelled out as `1 / (1 + e^{-y})`. Each result is therefore
  `fire` of the arguments, with the connections chained from rest: `0 + y = y` absorbs the start from rest, and for the
  entorhinal layer, where the reference adds the external input after the product and the layer update adds the product
  onto it, addition commutes. Both laws hold on all extended reals.
-/
import proofs.«117232_j20134806684319_1_alg».proof.Proof.Gen.ReferenceIdeal.Read
import proofs.«117232_j20134806684319_1_alg».proof.Proof.Layer

noncomputable section

namespace Cert.ReferenceIdeal.Net

open Cert.ReferenceIdeal Cert.ReferenceIdeal.Read Cert.Layer
open Idealize.ShloMosaic Idealize.ShloMosaic.ValueIdx

/-! ## The six products, each as a plain sum over the source layer -/

theorem dot_EC_DG (x0 : (⟨S1x4096, .f32⟩ : BufTy).Contents (Elt Ideal)) (x4 : (⟨S8192x4096, .f32⟩ : BufTy).Contents (Elt Ideal)) (i : S1x8192.Idx) :
    val_main_v1 (F := Ideal) x0 x4 i = ∑ k : Fin 4096, x0 (ix2 (i 0) k) * x4 (ix2 (i 1) k) := by
  rw [val_main_v1_apply]
  refine Finset.sum_congr rfl fun k _ => ?_
  rw [val_main_v0_apply]
  have el : lidx_main_v1 i k = ix2 (i 0) k := funext fun a => by
    match a with
    | ⟨0, _⟩ => rfl
    | ⟨1, _⟩ => rfl
  have er : idx_main_v0 (ridx_main_v1 i k) = ix2 (i 1) k := funext fun a => by
    match a with
    | ⟨0, _⟩ => rfl
    | ⟨1, _⟩ => rfl
  rw [el, er]
  rfl

theorem dot_DG_CA3 (x1 : (⟨S1x8192, .f32⟩ : BufTy).Contents (Elt Ideal)) (x5 : (⟨S4096x8192, .f32⟩ : BufTy).Contents (Elt Ideal)) (i : S1x4096.Idx) :
    val_main_v3 (F := Ideal) x1 x5 i = ∑ k : Fin 8192, x1 (ix2 (i 0) k) * x5 (ix2 (i 1) k) := by
  rw [val_main_v3_apply]
  refine Finset.sum_congr rfl fun k _ => ?_
  rw [val_main_v2_apply]
  have el : lidx_main_v3 i k = ix2 (i 0) k := funext fun a => by
    match a with
    | ⟨0, _⟩ => rfl
    | ⟨1, _⟩ => rfl
  have er : idx_main_v2 (ridx_main_v3 i k) = ix2 (i 1) k := funext fun a => by
    match a with
    | ⟨0, _⟩ => rfl
    | ⟨1, _⟩ => rfl
  rw [el, er]
  rfl

theorem dot_CA3_CA3 (x2 : (⟨S1x4096, .f32⟩ : BufTy).Contents (Elt Ideal)) (x6 : (⟨S4096x4096, .f32⟩ : BufTy).Contents (Elt Ideal)) (i : S1x4096.Idx) :
    val_main_v5 (F := Ideal) x2 x6 i = ∑ k : Fin 4096, x2 (ix2 (i 0) k) * x6 (ix2 (i 1) k) := by
  rw [val_main_v5_apply]
  refine Finset.sum_congr rfl fun k _ => ?_
  rw [val_main_v4_apply]
  have el : lidx_main_v5 i k = ix2 (i 0) k := funext fun a => by
    match a with
    | ⟨0, _⟩ => rfl
    | ⟨1, _⟩ => rfl
  have er : idx_main_v4 (ridx_main_v5 i k) = ix2 (i 1) k := funext fun a => by
    match a with
    | ⟨0, _⟩ => rfl
    | ⟨1, _⟩ => rfl
  rw [el, er]
  rfl

theorem dot_EC_CA3 (x0 : (⟨S1x4096, .f32⟩ : BufTy).Contents (Elt Ideal)) (x7 : (⟨S4096x4096, .f32⟩ : BufTy).Contents (Elt Ideal)) (i : S1x4096.Idx) :
    val_main_v8 (F := Ideal) x0 x7 i = ∑ k : Fin 4096, x0 (ix2 (i 0) k) * x7 (ix2 (i 1) k) := by
  rw [val_main_v8_apply]
  refine Finset.sum_congr rfl fun k _ => ?_
  rw [val_main_v7_apply]
  have el : lidx_main_v8 i k = ix2 (i 0) k := funext fun a => by
    match a with
    | ⟨0, _⟩ => rfl
    | ⟨1, _⟩ => rfl
  have er : idx_main_v7 (ridx_main_v8 i k) = ix2 (i 1) k := funext fun a => by
    match a with
    | ⟨0, _⟩ => rfl
    | ⟨1, _⟩ => rfl
  rw [el, er]
  rfl

theorem dot_CA3_CA1 (x2 : (⟨S1x4096, .f32⟩ : BufTy).Contents (Elt Ideal)) (x8 : (⟨S4096x4096, .f32⟩ : BufTy).Contents (Elt Ideal)) (i : S1x4096.Idx) :
    val_main_v11 (F := Ideal) x2 x8 i = ∑ k : Fin 4096, x2 (ix2 (i 0) k) * x8 (ix2 (i 1) k) := by
  rw [val_main_v11_apply]
  refine Finset.sum_congr rfl fun k _ => ?_
  rw [val_main_v10_apply]
  have el : lidx_main_v11 i k = ix2 (i 0) k := funext fun a => by
    match a with
    | ⟨0, _⟩ => rfl
    | ⟨1, _⟩ => rfl
  have er : idx_main_v10 (ridx_main_v11 i k) = ix2 (i 1) k := funext fun a => by
    match a with
    | ⟨0, _⟩ => rfl
    | ⟨1, _⟩ => rfl
  rw [el, er]
  rfl

theorem dot_CA1_EC (x3 : (⟨S1x4096, .f32⟩ : BufTy).Contents (Elt Ideal)) (x9 : (⟨S4096x4096, .f32⟩ : BufTy).Contents (Elt Ideal)) (i : S1x4096.Idx) :
    val_main_v13 (F := Ideal) x3 x9 i = ∑ k : Fin 4096, x3 (ix2 (i 0) k) * x9 (ix2 (i 1) k) := by
  rw [val_main_v13_apply]
  refine Finset.sum_congr rfl fun k _ => ?_
  rw [val_main_v12_apply]
  have el : lidx_main_v13 i k = ix2 (i 0) k := funext fun a => by
    match a with
    | ⟨0, _⟩ => rfl
    | ⟨1, _⟩ => rfl
  have er : idx_main_v12 (ridx_main_v13 i k) = ix2 (i 1) k := funext fun a => by
    match a with
    | ⟨0, _⟩ => rfl
    | ⟨1, _⟩ => rfl
  rw [el, er]
  rfl

/-! ## The four results -/

/-- The dentate layer: one connection, from rest. -/
theorem out_DG (x0 : (⟨S1x4096, .f32⟩ : BufTy).Contents (Elt Ideal)) (x4 : (⟨S8192x4096, .f32⟩ : BufTy).Contents (Elt Ideal)) :
    val_main_v26 (F := Ideal) x0 x4 = fire x0 x4 (rest 8192) := by
  funext i
  rw [val_main_v26_apply, val_main_v25_apply, val_main_cst_2_apply, val_main_v24_apply, val_main_v23_apply, val_main_cst_1_apply,
    val_main_v22_apply, val_main_v21_apply, dot_EC_DG, fire_apply]
  simp only [Ideal.hostDivf_def, Ideal.addf_def, Ideal.hostUnary_exp_def, Ideal.hostNegf_def, Ideal.negf_def, Ideal.ofBits_def]
  rw [logistic_spelled]
  show _ = Ideal.logistic ((0 : EReal) + _)
  rw [zero_add]

/-- The CA1 layer: one connection, from rest. -/
theorem out_CA1 (x2 : (⟨S1x4096, .f32⟩ : BufTy).Contents (Elt Ideal)) (x8 : (⟨S4096x4096, .f32⟩ : BufTy).Contents (Elt Ideal)) :
    val_main_v38 (F := Ideal) x2 x8 = fire x2 x8 (rest 4096) := by
  funext i
  rw [val_main_v38_apply, val_main_v37_apply, val_main_cst_6_apply, val_main_v36_apply, val_main_v35_apply, val_main_cst_5_apply,
    val_main_v34_apply, val_main_v33_apply, dot_CA3_CA1, fire_apply]
  simp only [Ideal.hostDivf_def, Ideal.addf_def, Ideal.hostUnary_exp_def, Ideal.hostNegf_def, Ideal.negf_def, Ideal.ofBits_def]
  rw [logistic_spelled]
  show _ = Ideal.logistic ((0 : EReal) + _)
  rw [zero_add]

/-- The CA3 layer: three connections (dentate, recurrent, entorhinal), chained from rest in that order. -/
theorem out_CA3 (x0 : (⟨S1x4096, .f32⟩ : BufTy).Contents (Elt Ideal)) (x1 : (⟨S1x8192, .f32⟩ : BufTy).Contents (Elt Ideal)) (x2 : (⟨S1x4096, .f32⟩ : BufTy).Contents (Elt Ideal)) (x5 : (⟨S4096x8192, .f32⟩ : BufTy).Contents (Elt Ideal)) (x6 x7 : (⟨S4096x4096, .f32⟩ : BufTy).Contents (Elt Ideal)) :
    val_main_v32 (F := Ideal) x0 x1 x2 x5 x6 x7 = fire x0 x7 (drive x2 x6 (drive x1 x5 (rest 4096))) := by
  funext i
  rw [val_main_v32_apply, val_main_v31_apply, val_main_cst_4_apply, val_main_v30_apply, val_main_v29_apply, val_main_cst_3_apply,
    val_main_v28_apply, val_main_v27_apply, val_main_v9_apply, val_main_v6_apply, dot_DG_CA3, dot_CA3_CA3, dot_EC_CA3,
    fire_apply, drive_apply, drive_rest_apply]
  simp only [Ideal.hostDivf_def, Ideal.addf_def, Ideal.hostUnary_exp_def, Ideal.hostNegf_def, Ideal.negf_def, Ideal.ofBits_def]
  rw [logistic_spelled]

/-- The entorhinal layer: one connection on top of the external input. -/
theorem out_EC (x3 : (⟨S1x4096, .f32⟩ : BufTy).Contents (Elt Ideal)) (x9 : (⟨S4096x4096, .f32⟩ : BufTy).Contents (Elt Ideal)) (x10 : (⟨S1x4096, .f32⟩ : BufTy).Contents (Elt Ideal)) :
    val_main_v20 (F := Ideal) x3 x9 x10 = fire x3 x9 x10 := by
  funext i
  rw [val_main_v20_apply, val_main_v19_apply, val_main_cst_0_apply, val_main_v18_apply, val_main_v17_apply, val_main_cst_apply,
    val_main_v16_apply, val_main_v15_apply, val_main_v14_apply, dot_CA1_EC, fire_apply]
  simp only [Ideal.hostDivf_def, Ideal.addf_def, Ideal.hostUnary_exp_def, Ideal.hostNegf_def, Ideal.negf_def, Ideal.ofBits_def]
  rw [logistic_spelled, add_comm]

end Cert.ReferenceIdeal.Net

end
-- ==== Proof.lean ====
/-
  One step of a four-layer recurrent network (entorhinal cortex, dentate gyrus, CA3, CA1) on a TPU, against its
  reference.

  Every layer receives, from each layer connected to it, that layer's PREVIOUS activation row times the transposed
  weight matrix of the connection, and fires through the logistic function:

      dentate      σ(EC · W_EC→DGᵀ)
      CA3          σ(DG · W_DG→CA3ᵀ + CA3 · W_CA3→CA3ᵀ + EC · W_EC→CA3ᵀ)
      CA1          σ(CA3 · W_CA3→CA1ᵀ)
      entorhinal   σ(CA1 · W_CA1→ECᵀ + external input)

  The kernel program computes each connection in a pipelined region of its own, tiled over the receiving layer's
  units, threading a layer's running total from one region to the next (starting from a row of zeros, or from the
  external input) and applying σ in the last region of each layer. The reference multiplies by explicitly transposed
  matrices, adds the connections in the order written and spells σ as 1 / (1 + e^{-y}).

  Over the extended reals the two agree entry by entry: a matrix-unit product into a zero accumulator and the host's
  product are the same sum Σ_k x[0, k] · W[j, k]; the logistic function IS 1 / (1 + e^{-y}), at the infinities too;
  and the only algebra between the two sides is 0 + y = y (the running total starts from zeros) and, for the
  entorhinal layer, y + b = b + y. Neither law needs finite entries, so the precondition is never opened.

  The modules: Layer (the update as a function, `drive` and `fire`), BodyValue (a grid step's stored tile is `drive` /
  `fire` of its loaded tiles), Region0 … Region5 (a region's result array after its grid), NetRun (the program's run
  with its results named), Fold (the results as functions of the arguments), Reference (the reference's results as
  the same functions).
-/
import proofs.«117232_j20134806684319_1_alg».proof.Defs
import proofs.«117232_j20134806684319_1_alg».proof.Proof.Gen.Kernel
import proofs.«117232_j20134806684319_1_alg».proof.Proof.Gen.Kernel.Skeleton
import proofs.«117232_j20134806684319_1_alg».proof.Proof.Gen.Kernel.Launch
import proofs.«117232_j20134806684319_1_alg».proof.Proof.Gen.Kernel.Points
import proofs.«117232_j20134806684319_1_alg».proof.Proof.Gen.Kernel.Frame
import proofs.«117232_j20134806684319_1_alg».proof.Proof.Gen.KernelIdeal
import proofs.«117232_j20134806684319_1_alg».proof.Proof.Gen.KernelIdeal.Skeleton
import proofs.«117232_j20134806684319_1_alg».proof.Proof.Gen.KernelIdeal.Launch
import proofs.«117232_j20134806684319_1_alg».proof.Proof.Gen.KernelIdeal.Points
import proofs.«117232_j20134806684319_1_alg».proof.Proof.Gen.KernelIdeal.Frame
import proofs.«117232_j20134806684319_1_alg».proof.Proof.Gen.ReferenceIdeal
import proofs.«117232_j20134806684319_1_alg».proof.Proof.Gen.ReferenceIdeal.Read
import proofs.«117232_j20134806684319_1_alg».proof.Proof.Gen.Pre_finite_inputs
import proofs.«117232_j20134806684319_1_alg».proof.Proof.NetRun
import proofs.«117232_j20134806684319_1_alg».proof.Proof.Fold
import proofs.«117232_j20134806684319_1_alg».proof.Proof.Reference
import Idealize.ShloMosaic.Adequacy
import Idealize.ShloMosaic.Init

noncomputable section

namespace Cert.Proof

open Idealize.ShloMosaic Idealize.ShloMosaic.TcCoe Idealize.SL.Sem Cert.Layer

/-- The program as printed runs to the end and leaves its arguments alone. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- So does the reference: its run, with the four results forgotten. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- Reading the program over the extended reals rewrote no operation. -/
theorem preserves : Cert.preserves_Kernel_KernelIdeal := trivial

/-- From memories that agree on the arguments both programs run to the end with the same four rows: each layer's
    `fire` on its connections, chained from rest (or, for the entorhinal layer, from the external input). -/
theorem algebraic : Cert.algebraic_KernelIdeal_ReferenceIdeal := by
  intro m ρ m' ρ' _ hagree
  refine ⟨fun c => fire (m ((c.tc : Thread Cert.KernelIdeal.nD Cert.KernelIdeal.τ).loc Cert.KernelIdeal.main_arg3)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => fire (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (rest 8192),
    fun c => fire (m ((c.tc : Thread Cert.KernelIdeal.nD Cert.KernelIdeal.τ).loc Cert.KernelIdeal.main_arg0)) (m ((c.tc : Thread Cert.KernelIdeal.nD Cert.KernelIdeal.τ).loc Cert.KernelIdeal.main_arg7))
      (drive (m ((c.tc : Thread Cert.KernelIdeal.nD Cert.KernelIdeal.τ).loc Cert.KernelIdeal.main_arg2)) (m ((c.tc : Thread Cert.KernelIdeal.nD Cert.KernelIdeal.τ).loc Cert.KernelIdeal.main_arg6))
        (drive (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (rest 4096))),
    fun c => fire (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (rest 4096), ?_, ?_⟩
  · exact (θ_run Cert.KernelIdeal.defs _ _).mono
      (fun r h c => ⟨(h c).1.trans (Cert.KernelIdeal.Fold.end_EC m ρ c),
        (h c).2.1.trans (Cert.KernelIdeal.Fold.end_DG m ρ c),
        (h c).2.2.1.trans (Cert.KernelIdeal.Fold.end_CA3 m ρ c),
        (h c).2.2.2.1.trans (Cert.KernelIdeal.Fold.end_CA1 m ρ c),
        (h c).2.2.2.2⟩)
      (Cert.KernelIdeal.Net.run (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9, a10⟩ := hagree c
    obtain ⟨r0, r1, r2, r3, kept⟩ := h c
    refine ⟨r0.trans ?_, r1.trans ?_, r2.trans ?_, r3.trans ?_, kept⟩
    · rw [Cert.ReferenceIdeal.Read.val_main_v20_eq, Cert.ReferenceIdeal.Net.out_EC, a3, a9, a10]
    · rw [Cert.ReferenceIdeal.Read.val_main_v26_eq, Cert.ReferenceIdeal.Net.out_DG, a0, a4]
    · rw [Cert.ReferenceIdeal.Read.val_main_v32_eq, Cert.ReferenceIdeal.Net.out_CA3, a0, a1, a2, a5, a6, a7]
    · rw [Cert.ReferenceIdeal.Read.val_main_v38_eq, Cert.ReferenceIdeal.Net.out_CA1, a2, a8]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
